-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S768x128 : Shape := ⟨2, ![768, 128]⟩
abbrev S1x128 : Shape := ⟨2, ![1, 128]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S16384x768 .f32) (main_arg1 : FVec F S768x128 .f32) (main_arg2 : FVec F S1x128 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S768x128 .f32 := Host.absf main_arg1
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Kernel.lean ====
abbrev S16384x768 : Shape := ⟨2, ![16384, 768]⟩
abbrev S768x128 : Shape := ⟨2, ![768, 128]⟩
abbrev S1x128 : Shape := ⟨2, ![1, 128]⟩
abbrev S16384x20 : Shape := ⟨2, ![16384, 20]⟩
abbrev S2048x384 : Shape := ⟨2, ![2048, 384]⟩
abbrev S384x128 : Shape := ⟨2, ![384, 128]⟩
abbrev S2048x20 : Shape := ⟨2, ![2048, 20]⟩
abbrev S2048x128 : Shape := ⟨2, ![2048, 128]⟩

abbrev nBuf : Space → Nat
  | .hbm => 4
  | .vmem => 9
  | .smem => 0
  | _ => 0

abbrev bufTy : (tb : Table) → Fin (tcTables nBuf tb) → BufTy
  | .hbm, ⟨0, _⟩ => ⟨S16384x768, .f32⟩
  | .hbm, ⟨1, _⟩ => ⟨S768x128, .f32⟩
  | .hbm, ⟨2, _⟩ => ⟨S1x128, .f32⟩
  | .hbm, ⟨3, _⟩ => ⟨S16384x20, .f32⟩
  | .local _ .vmem, ⟨0, _⟩ => ⟨S2048x384, .f32⟩
  | .local _ .vmem, ⟨1, _⟩ => ⟨S2048x384, .f32⟩
  | .local _ .vmem, ⟨2, _⟩ => ⟨S2048x384, .f32⟩
  | .local _ .vmem, ⟨3, _⟩ => ⟨S2048x384, .f32⟩
  | .local _ .vmem, ⟨4, _⟩ => ⟨S384x128, .f32⟩
  | .local _ .vmem, ⟨5, _⟩ => ⟨S384x128, .f32⟩
  | .local _ .vmem, ⟨6, _⟩ => ⟨S1x128, .f32⟩
  | .local _ .vmem, ⟨7, _⟩ => ⟨S2048x20, .f32⟩
  | .local _ .vmem, ⟨8, _⟩ => ⟨S2048x20, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2048x384_S2048x384_0_0 : ∀ a, (![0, 0] : Fin 2 → Nat) a + S2048x384.size a ≤ S2048x384.size a
  h_S2048x384 : 0 < S2048x384.numel
  inb_S384x128_S384x128_0_0 : ∀ a, (![0, 0] : Fin 2 → Nat) a + S384x128.size a ≤ S384x128.size a
  h_S384x128 : 0 < S384x128.numel
  inb_S1x128_S1x128_0_0 : ∀ a, (![0, 0] : Fin 2 → Nat) a + S1x128.size a ≤ S1x128.size a
  h_S1x128 : 0 < S1x128.numel
  broadcasts_S1x128_S2048x128 : S1x128.Broadcasts S2048x128
  slices_S2048x128_o0_0_S2048x20 : S2048x128.Slices ![0, 0] S2048x20
  inb_S2048x20_S2048x20_0_0 : ∀ a, (![0, 0] : Fin 2 → Nat) a + S2048x20.size a ≤ S2048x20.size a
  h_S2048x20 : 0 < S2048x20.numel
  dot_S2048x384_S384x128_S2048x128_1_0_0_1_n_n_wf : DotDims.WF S2048x384 S384x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x384.size a ≤ S16384x768.size a
  hwx0_0 : ∀ i : grid0.Coords, EltTy.bits .f32 = 32 ∨ (Rect.block (s := S16384x768) S2048x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x384.size a ≤ S16384x768.size a
  hwx0_1 : ∀ i : grid0.Coords, EltTy.bits .f32 = 32 ∨ (Rect.block (s := S16384x768) S2048x384.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S384x128.size a ≤ S768x128.size a
  hwx0_2 : ∀ i : grid0.Coords, EltTy.bits .f32 = 32 ∨ (Rect.block (s := S768x128) S384x128.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S768x128.size a
  hwx0_3 : ∀ i : grid0.Coords, EltTy.bits .f32 = 32 ∨ (Rect.block (s := S768x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x20.size a ≤ S16384x20.size a
  hwx0_5 : ∀ i : grid0.Coords, EltTy.bits .f32 = 32 ∨ (Rect.block (s := S16384x20) S2048x20.size (cc0_transform_5 i) (hinb0_5 i)).WholeWords (EltTy.packing .f32)

variable [Facts₀]

def dot_S2048x384_S384x128_S2048x128_1_0_0_1_n_n : DotDims S2048x384 S384x128 S2048x128 where
  lhsContracting := [1]
  rhsContracting := [0]
  lhsNonContracting := [0]
  rhsNonContracting := [1]
  lhsBatch := []
  rhsBatch := []
  wf := dot_S2048x384_S384x128_S2048x128_1_0_0_1_n_n_wf

abbrev win0_0 : Pipeline.Window sig grid0 :=
  Pipeline.Window.ofSpec (Memref.whole main_arg0) S2048x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S384x128.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S384x128.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x20.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x768 : Shape := ⟨2, ![16384, 768]⟩
abbrev S768x128 : Shape := ⟨2, ![768, 128]⟩
abbrev S1x128 : Shape := ⟨2, ![1, 128]⟩
abbrev S1 : Shape := ⟨1, ![1]⟩
abbrev S_ : Shape := ⟨0, ![]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S768x20 : Shape := ⟨2, ![768, 20]⟩
abbrev S1x20 : Shape := ⟨2, ![1, 20]⟩
abbrev S16384x128 : Shape := ⟨2, ![16384, 128]⟩
abbrev S1024x768 : Shape := ⟨2, ![1024, 768]⟩
abbrev S1024x128 : Shape := ⟨2, ![1024, 128]⟩
abbrev S16384x20 : Shape := ⟨2, ![16384, 20]⟩

abbrev nBuf : Space → Nat
  | .hbm => 791
  | .vmem => 6
  | .smem => 1
  | _ => 0

abbrev hbmTy0_0 (i : Nat) : BufTy := match i % 128 with
  | 0 => ⟨S16384x768, .f32⟩
  | 1 => ⟨S768x128, .f32⟩
  | 2 => ⟨S1x128, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S1, .i32⟩
  | 14 => ⟨S_, .i32⟩
  | 15 => ⟨S1, .i32⟩
  | 16 => ⟨S_, .i32⟩
  | 17 => ⟨S2, .i64⟩
  | 18 => ⟨S_, .i64⟩
  | 19 => ⟨S2, .i64⟩
  | 20 => ⟨S2, .i64⟩
  | 21 => ⟨S_, .i64⟩
  | 22 => ⟨S2, .i64⟩
  | 23 => ⟨S2, .i64⟩
  | 24 => ⟨S2, .i32⟩
  | 25 => ⟨S2, .i32⟩
  | 26 => ⟨S_, .i32⟩
  | 27 => ⟨S_, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S16384x768, .f32⟩

abbrev hbmTy0_1 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2x1, .i32⟩
  | 121 => ⟨S2x1, .i32⟩
  | 122 => ⟨S2x2, .i32⟩
  | 123 => ⟨S1x2, .i32⟩
  | 124 => ⟨S2, .i32⟩
  | 125 => ⟨S1x2, .i32⟩
  | 126 => ⟨S2, .i32⟩
  | 127 => ⟨S_, .f32⟩
  | _ => ⟨S16384x768, .f32⟩

abbrev hbmTy0_2 (i : Nat) : BufTy := match i % 128 with
  | 0 => ⟨S_, .f32⟩
  | 1 => ⟨S_, .f32⟩
  | 2 => ⟨S_, .f32⟩
  | 3 => ⟨S1x1, .f32⟩
  | 4 => ⟨S1x1, .f32⟩
  | 5 => ⟨S1, .i32⟩
  | 6 => ⟨S_, .i32⟩
  | 7 => ⟨S1, .i32⟩
  | 8 => ⟨S_, .i32⟩
  | 9 => ⟨S768x20, .i64⟩
  | 10 => ⟨S768x20, .i64⟩
  | 11 => ⟨S_, .i64⟩
  | 12 => ⟨S768x20, .i64⟩
  | 13 => ⟨S768x20, .i64⟩
  | 14 => ⟨S_, .i64⟩
  | 15 => ⟨S768x20, .i64⟩
  | 16 => ⟨S768x20, .i64⟩
  | 17 => ⟨S768x20, .i64⟩
  | 18 => ⟨S_, .i64⟩
  | 19 => ⟨S768x20, .i64⟩
  | 20 => ⟨S768x20, .i64⟩
  | 21 => ⟨S768x20, .i32⟩
  | 22 => ⟨S768x20, .i32⟩
  | 23 => ⟨S_, .i32⟩
  | 24 => ⟨S_, .i32⟩
  | 25 => ⟨S_, .i32⟩
  | 26 => ⟨S768x20, .i32⟩
  | 27 => ⟨S768x20, .i32⟩
  | 28 => ⟨S768x20, .i32⟩
  | 29 => ⟨S768x20, .i32⟩
  | 30 => ⟨S768x20, .i32⟩
  | 31 => ⟨S_, .i32⟩
  | 32 => ⟨S768x20, .i32⟩
  | 33 => ⟨S768x20, .i32⟩
  | 34 => ⟨S_, .i32⟩
  | 35 => ⟨S768x20, .i32⟩
  | 36 => ⟨S768x20, .i32⟩
  | 37 => ⟨S768x20, .i32⟩
  | 38 => ⟨S768x20, .i32⟩
  | 39 => ⟨S768x20, .i32⟩
  | 40 => ⟨S_, .i32⟩
  | 41 => ⟨S768x20, .i32⟩
  | 42 => ⟨S768x20, .i32⟩
  | 43 => ⟨S_, .i32⟩
  | 44 => ⟨S768x20, .i32⟩
  | 45 => ⟨S768x20, .i32⟩
  | 46 => ⟨S768x20, .i32⟩
  | 47 => ⟨S768x20, .i32⟩
  | 48 => ⟨S768x20, .i32⟩
  | 49 => ⟨S_, .i32⟩
  | 50 => ⟨S768x20, .i32⟩
  | 51 => ⟨S768x20, .i32⟩
  | 52 => ⟨S_, .i32⟩
  | 53 => ⟨S768x20, .i32⟩
  | 54 => ⟨S768x20, .i32⟩
  | 55 => ⟨S768x20, .i32⟩
  | 56 => ⟨S768x20, .i32⟩
  | 57 => ⟨S768x20, .i32⟩
  | 58 => ⟨S_, .i32⟩
  | 59 => ⟨S768x20, .i32⟩
  | 60 => ⟨S768x20, .i32⟩
  | 61 => ⟨S_, .i32⟩
  | 62 => ⟨S768x20, .i32⟩
  | 63 => ⟨S768x20, .i32⟩
  | 64 => ⟨S768x20, .i32⟩
  | 65 => ⟨S768x20, .i32⟩
  | 66 => ⟨S768x20, .i32⟩
  | 67 => ⟨S768x20, .i32⟩
  | 68 => ⟨S768x20, .i32⟩
  | 69 => ⟨S768x20, .i32⟩
  | 70 => ⟨S_, .i32⟩
  | 71 => ⟨S768x20, .i32⟩
  | 72 => ⟨S768x20, .i32⟩
  | 73 => ⟨S768x20, .i32⟩
  | 74 => ⟨S_, .i32⟩
  | 75 => ⟨S768x20, .i32⟩
  | 76 => ⟨S768x20, .i32⟩
  | 77 => ⟨S_, .i32⟩
  | 78 => ⟨S768x20, .i32⟩
  | 79 => ⟨S768x20, .i32⟩
  | 80 => ⟨S768x20, .i32⟩
  | 81 => ⟨S768x20, .i32⟩
  | 82 => ⟨S768x20, .i32⟩
  | 83 => ⟨S_, .i32⟩
  | 84 => ⟨S768x20, .i32⟩
  | 85 => ⟨S768x20, .i32⟩
  | 86 => ⟨S_, .i32⟩
  | 87 => ⟨S768x20, .i32⟩
  | 88 => ⟨S768x20, .i32⟩
  | 89 => ⟨S768x20, .i32⟩
  | 90 => ⟨S768x20, .i32⟩
  | 91 => ⟨S768x20, .i32⟩
  | 92 => ⟨S_, .i32⟩
  | 93 => ⟨S768x20, .i32⟩
  | 94 => ⟨S768x20, .i32⟩
  | 95 => ⟨S_, .i32⟩
  | 96 => ⟨S768x20, .i32⟩
  | 97 => ⟨S768x20, .i32⟩
  | 98 => ⟨S768x20, .i32⟩
  | 99 => ⟨S768x20, .i32⟩
  | 100 => ⟨S768x20, .i32⟩
  | 101 => ⟨S_, .i32⟩
  | 102 => ⟨S768x20, .i32⟩
  | 103 => ⟨S768x20, .i32⟩
  | 104 => ⟨S_, .i32⟩
  | 105 => ⟨S768x20, .i32⟩
  | 106 => ⟨S768x20, .i32⟩
  | 107 => ⟨S768x20, .i32⟩
  | 108 => ⟨S768x20, .i32⟩
  | 109 => ⟨S768x20, .i32⟩
  | 110 => ⟨S768x20, .i32⟩
  | 111 => ⟨S768x20, .i32⟩
  | 112 => ⟨S768x20, .i32⟩
  | 113 => ⟨S_, .i32⟩
  | 114 => ⟨S768x20, .i32⟩
  | 115 => ⟨S768x20, .i32⟩
  | 116 => ⟨S768x20, .i32⟩
  | 117 => ⟨S_, .i32⟩
  | 118 => ⟨S768x20, .i32⟩
  | 119 => ⟨S768x20, .i32⟩
  | 120 => ⟨S_, .i32⟩
  | 121 => ⟨S768x20, .i32⟩
  | 122 => ⟨S768x20, .i32⟩
  | 123 => ⟨S768x20, .i32⟩
  | 124 => ⟨S768x20, .i32⟩
  | 125 => ⟨S768x20, .i32⟩
  | 126 => ⟨S_, .i32⟩
  | 127 => ⟨S768x20, .i32⟩
  | _ => ⟨S16384x768, .f32⟩

abbrev hbmTy0_3 (i : Nat) : BufTy := match i % 128 with
  | 0 => ⟨S768x20, .i32⟩
  | 1 => ⟨S_, .i32⟩
  | 2 => ⟨S768x20, .i32⟩
  | 3 => ⟨S768x20, .i32⟩
  | 4 => ⟨S768x20, .i32⟩
  | 5 => ⟨S768x20, .i32⟩
  | 6 => ⟨S768x20, .i32⟩
  | 7 => ⟨S_, .i32⟩
  | 8 => ⟨S768x20, .i32⟩
  | 9 => ⟨S768x20, .i32⟩
  | 10 => ⟨S_, .i32⟩
  | 11 => ⟨S768x20, .i32⟩
  | 12 => ⟨S768x20, .i32⟩
  | 13 => ⟨S768x20, .i32⟩
  | 14 => ⟨S768x20, .i32⟩
  | 15 => ⟨S768x20, .i32⟩
  | 16 => ⟨S_, .i32⟩
  | 17 => ⟨S768x20, .i32⟩
  | 18 => ⟨S768x20, .i32⟩
  | 19 => ⟨S_, .i32⟩
  | 20 => ⟨S768x20, .i32⟩
  | 21 => ⟨S768x20, .i32⟩
  | 22 => ⟨S768x20, .i32⟩
  | 23 => ⟨S768x20, .i32⟩
  | 24 => ⟨S768x20, .i32⟩
  | 25 => ⟨S768x20, .i32⟩
  | 26 => ⟨S768x20, .i32⟩
  | 27 => ⟨S768x20, .i32⟩
  | 28 => ⟨S_, .i32⟩
  | 29 => ⟨S768x20, .i32⟩
  | 30 => ⟨S768x20, .i32⟩
  | 31 => ⟨S768x20, .i32⟩
  | 32 => ⟨S_, .i32⟩
  | 33 => ⟨S768x20, .i32⟩
  | 34 => ⟨S768x20, .i32⟩
  | 35 => ⟨S_, .i32⟩
  | 36 => ⟨S768x20, .i32⟩
  | 37 => ⟨S768x20, .i32⟩
  | 38 => ⟨S768x20, .i32⟩
  | 39 => ⟨S768x20, .i32⟩
  | 40 => ⟨S768x20, .i32⟩
  | 41 => ⟨S_, .i32⟩
  | 42 => ⟨S768x20, .i32⟩
  | 43 => ⟨S768x20, .i32⟩
  | 44 => ⟨S_, .i32⟩
  | 45 => ⟨S768x20, .i32⟩
  | 46 => ⟨S768x20, .i32⟩
  | 47 => ⟨S768x20, .i32⟩
  | 48 => ⟨S768x20, .i32⟩
  | 49 => ⟨S768x20, .i32⟩
  | 50 => ⟨S_, .i32⟩
  | 51 => ⟨S768x20, .i32⟩
  | 52 => ⟨S768x20, .i32⟩
  | 53 => ⟨S_, .i32⟩
  | 54 => ⟨S768x20, .i32⟩
  | 55 => ⟨S768x20, .i32⟩
  | 56 => ⟨S768x20, .i32⟩
  | 57 => ⟨S768x20, .i32⟩
  | 58 => ⟨S768x20, .i32⟩
  | 59 => ⟨S_, .i32⟩
  | 60 => ⟨S768x20, .i32⟩
  | 61 => ⟨S768x20, .i32⟩
  | 62 => ⟨S_, .i32⟩
  | 63 => ⟨S768x20, .i32⟩
  | 64 => ⟨S768x20, .i32⟩
  | 65 => ⟨S768x20, .i32⟩
  | 66 => ⟨S768x20, .i32⟩
  | 67 => ⟨S768x20, .i32⟩
  | 68 => ⟨S768x20, .i32⟩
  | 69 => ⟨S768x20, .i32⟩
  | 70 => ⟨S768x20, .i32⟩
  | 71 => ⟨S_, .i32⟩
  | 72 => ⟨S768x20, .i32⟩
  | 73 => ⟨S768x20, .i32⟩
  | 74 => ⟨S768x20, .i32⟩
  | 75 => ⟨S_, .i32⟩
  | 76 => ⟨S768x20, .i32⟩
  | 77 => ⟨S768x20, .i32⟩
  | 78 => ⟨S_, .i32⟩
  | 79 => ⟨S768x20, .i32⟩
  | 80 => ⟨S768x20, .i32⟩
  | 81 => ⟨S768x20, .i32⟩
  | 82 => ⟨S768x20, .i32⟩
  | 83 => ⟨S768x20, .i32⟩
  | 84 => ⟨S_, .i32⟩
  | 85 => ⟨S768x20, .i32⟩
  | 86 => ⟨S768x20, .i32⟩
  | 87 => ⟨S_, .i32⟩
  | 88 => ⟨S768x20, .i32⟩
  | 89 => ⟨S768x20, .i32⟩
  | 90 => ⟨S768x20, .i32⟩
  | 91 => ⟨S768x20, .i32⟩
  | 92 => ⟨S768x20, .i32⟩
  | 93 => ⟨S_, .i32⟩
  | 94 => ⟨S768x20, .i32⟩
  | 95 => ⟨S768x20, .i32⟩
  | 96 => ⟨S_, .i32⟩
  | 97 => ⟨S768x20, .i32⟩
  | 98 => ⟨S768x20, .i32⟩
  | 99 => ⟨S768x20, .i32⟩
  | 100 => ⟨S768x20, .i32⟩
  | 101 => ⟨S768x20, .i32⟩
  | 102 => ⟨S_, .i32⟩
  | 103 => ⟨S768x20, .i32⟩
  | 104 => ⟨S768x20, .i32⟩
  | 105 => ⟨S_, .i32⟩
  | 106 => ⟨S768x20, .i32⟩
  | 107 => ⟨S768x20, .i32⟩
  | 108 => ⟨S768x20, .i32⟩
  | 109 => ⟨S768x20, .i32⟩
  | 110 => ⟨S768x20, .i32⟩
  | 111 => ⟨S768x20, .i32⟩
  | 112 => ⟨S768x20, .i32⟩
  | 113 => ⟨S768x20, .i32⟩
  | 114 => ⟨S_, .i32⟩
  | 115 => ⟨S768x20, .i32⟩
  | 116 => ⟨S768x20, .i32⟩
  | 117 => ⟨S768x20, .i32⟩
  | 118 => ⟨S_, .i32⟩
  | 119 => ⟨S768x20, .i32⟩
  | 120 => ⟨S768x20, .i32⟩
  | 121 => ⟨S_, .i32⟩
  | 122 => ⟨S768x20, .i32⟩
  | 123 => ⟨S768x20, .i32⟩
  | 124 => ⟨S768x20, .f32⟩
  | 125 => ⟨S_, .f32⟩
  | 126 => ⟨S768x20, .f32⟩
  | 127 => ⟨S768x20, .f32⟩
  | _ => ⟨S16384x768, .f32⟩

abbrev hbmTy0_4 (i : Nat) : BufTy := match i % 128 with
  | 0 => ⟨S1x1, .f32⟩
  | 1 => ⟨S768x20, .f32⟩
  | 2 => ⟨S768x20, .f32⟩
  | 3 => ⟨S768x20, .f32⟩
  | 4 => ⟨S768x20, .f32⟩
  | 5 => ⟨S768x20, .f32⟩
  | 6 => ⟨S768x20, .f32⟩
  | 7 => ⟨S_, .f32⟩
  | 8 => ⟨S_, .f32⟩
  | 9 => ⟨S_, .f32⟩
  | 10 => ⟨S_, .f32⟩
  | 11 => ⟨S1x1, .f32⟩
  | 12 => ⟨S1x1, .f32⟩
  | 13 => ⟨S1, .i32⟩
  | 14 => ⟨S_, .i32⟩
  | 15 => ⟨S1, .i32⟩
  | 16 => ⟨S_, .i32⟩
  | 17 => ⟨S1x20, .i64⟩
  | 18 => ⟨S1x20, .i64⟩
  | 19 => ⟨S_, .i64⟩
  | 20 => ⟨S1x20, .i64⟩
  | 21 => ⟨S1x20, .i64⟩
  | 22 => ⟨S_, .i64⟩
  | 23 => ⟨S1x20, .i64⟩
  | 24 => ⟨S1x20, .i64⟩
  | 25 => ⟨S1x20, .i64⟩
  | 26 => ⟨S_, .i64⟩
  | 27 => ⟨S1x20, .i64⟩
  | 28 => ⟨S1x20, .i64⟩
  | 29 => ⟨S1x20, .i32⟩
  | 30 => ⟨S1x20, .i32⟩
  | 31 => ⟨S_, .i32⟩
  | 32 => ⟨S_, .i32⟩
  | 33 => ⟨S_, .i32⟩
  | 34 => ⟨S1x20, .i32⟩
  | 35 => ⟨S1x20, .i32⟩
  | 36 => ⟨S1x20, .i32⟩
  | 37 => ⟨S1x20, .i32⟩
  | 38 => ⟨S1x20, .i32⟩
  | 39 => ⟨S_, .i32⟩
  | 40 => ⟨S1x20, .i32⟩
  | 41 => ⟨S1x20, .i32⟩
  | 42 => ⟨S_, .i32⟩
  | 43 => ⟨S1x20, .i32⟩
  | 44 => ⟨S1x20, .i32⟩
  | 45 => ⟨S1x20, .i32⟩
  | 46 => ⟨S1x20, .i32⟩
  | 47 => ⟨S1x20, .i32⟩
  | 48 => ⟨S_, .i32⟩
  | 49 => ⟨S1x20, .i32⟩
  | 50 => ⟨S1x20, .i32⟩
  | 51 => ⟨S_, .i32⟩
  | 52 => ⟨S1x20, .i32⟩
  | 53 => ⟨S1x20, .i32⟩
  | 54 => ⟨S1x20, .i32⟩
  | 55 => ⟨S1x20, .i32⟩
  | 56 => ⟨S1x20, .i32⟩
  | 57 => ⟨S_, .i32⟩
  | 58 => ⟨S1x20, .i32⟩
  | 59 => ⟨S1x20, .i32⟩
  | 60 => ⟨S_, .i32⟩
  | 61 => ⟨S1x20, .i32⟩
  | 62 => ⟨S1x20, .i32⟩
  | 63 => ⟨S1x20, .i32⟩
  | 64 => ⟨S1x20, .i32⟩
  | 65 => ⟨S1x20, .i32⟩
  | 66 => ⟨S_, .i32⟩
  | 67 => ⟨S1x20, .i32⟩
  | 68 => ⟨S1x20, .i32⟩
  | 69 => ⟨S_, .i32⟩
  | 70 => ⟨S1x20, .i32⟩
  | 71 => ⟨S1x20, .i32⟩
  | 72 => ⟨S1x20, .i32⟩
  | 73 => ⟨S1x20, .i32⟩
  | 74 => ⟨S1x20, .i32⟩
  | 75 => ⟨S1x20, .i32⟩
  | 76 => ⟨S1x20, .i32⟩
  | 77 => ⟨S1x20, .i32⟩
  | 78 => ⟨S_, .i32⟩
  | 79 => ⟨S1x20, .i32⟩
  | 80 => ⟨S1x20, .i32⟩
  | 81 => ⟨S1x20, .i32⟩
  | 82 => ⟨S_, .i32⟩
  | 83 => ⟨S1x20, .i32⟩
  | 84 => ⟨S1x20, .i32⟩
  | 85 => ⟨S_, .i32⟩
  | 86 => ⟨S1x20, .i32⟩
  | 87 => ⟨S1x20, .i32⟩
  | 88 => ⟨S1x20, .i32⟩
  | 89 => ⟨S1x20, .i32⟩
  | 90 => ⟨S1x20, .i32⟩
  | 91 => ⟨S_, .i32⟩
  | 92 => ⟨S1x20, .i32⟩
  | 93 => ⟨S1x20, .i32⟩
  | 94 => ⟨S_, .i32⟩
  | 95 => ⟨S1x20, .i32⟩
  | 96 => ⟨S1x20, .i32⟩
  | 97 => ⟨S1x20, .i32⟩
  | 98 => ⟨S1x20, .i32⟩
  | 99 => ⟨S1x20, .i32⟩
  | 100 => ⟨S_, .i32⟩
  | 101 => ⟨S1x20, .i32⟩
  | 102 => ⟨S1x20, .i32⟩
  | 103 => ⟨S_, .i32⟩
  | 104 => ⟨S1x20, .i32⟩
  | 105 => ⟨S1x20, .i32⟩
  | 106 => ⟨S1x20, .i32⟩
  | 107 => ⟨S1x20, .i32⟩
  | 108 => ⟨S1x20, .i32⟩
  | 109 => ⟨S_, .i32⟩
  | 110 => ⟨S1x20, .i32⟩
  | 111 => ⟨S1x20, .i32⟩
  | 112 => ⟨S_, .i32⟩
  | 113 => ⟨S1x20, .i32⟩
  | 114 => ⟨S1x20, .i32⟩
  | 115 => ⟨S1x20, .i32⟩
  | 116 => ⟨S1x20, .i32⟩
  | 117 => ⟨S1x20, .i32⟩
  | 118 => ⟨S1x20, .i32⟩
  | 119 => ⟨S1x20, .i32⟩
  | 120 => ⟨S1x20, .i32⟩
  | 121 => ⟨S_, .i32⟩
  | 122 => ⟨S1x20, .i32⟩
  | 123 => ⟨S1x20, .i32⟩
  | 124 => ⟨S1x20, .i32⟩
  | 125 => ⟨S_, .i32⟩
  | 126 => ⟨S1x20, .i32⟩
  | 127 => ⟨S1x20, .i32⟩
  | _ => ⟨S16384x768, .f32⟩

abbrev hbmTy0_5 (i : Nat) : BufTy := match i % 128 with
  | 0 => ⟨S_, .i32⟩
  | 1 => ⟨S1x20, .i32⟩
  | 2 => ⟨S1x20, .i32⟩
  | 3 => ⟨S1x20, .i32⟩
  | 4 => ⟨S1x20, .i32⟩
  | 5 => ⟨S1x20, .i32⟩
  | 6 => ⟨S_, .i32⟩
  | 7 => ⟨S1x20, .i32⟩
  | 8 => ⟨S1x20, .i32⟩
  | 9 => ⟨S_, .i32⟩
  | 10 => ⟨S1x20, .i32⟩
  | 11 => ⟨S1x20, .i32⟩
  | 12 => ⟨S1x20, .i32⟩
  | 13 => ⟨S1x20, .i32⟩
  | 14 => ⟨S1x20, .i32⟩
  | 15 => ⟨S_, .i32⟩
  | 16 => ⟨S1x20, .i32⟩
  | 17 => ⟨S1x20, .i32⟩
  | 18 => ⟨S_, .i32⟩
  | 19 => ⟨S1x20, .i32⟩
  | 20 => ⟨S1x20, .i32⟩
  | 21 => ⟨S1x20, .i32⟩
  | 22 => ⟨S1x20, .i32⟩
  | 23 => ⟨S1x20, .i32⟩
  | 24 => ⟨S_, .i32⟩
  | 25 => ⟨S1x20, .i32⟩
  | 26 => ⟨S1x20, .i32⟩
  | 27 => ⟨S_, .i32⟩
  | 28 => ⟨S1x20, .i32⟩
  | 29 => ⟨S1x20, .i32⟩
  | 30 => ⟨S1x20, .i32⟩
  | 31 => ⟨S1x20, .i32⟩
  | 32 => ⟨S1x20, .i32⟩
  | 33 => ⟨S1x20, .i32⟩
  | 34 => ⟨S1x20, .i32⟩
  | 35 => ⟨S1x20, .i32⟩
  | 36 => ⟨S_, .i32⟩
  | 37 => ⟨S1x20, .i32⟩
  | 38 => ⟨S1x20, .i32⟩
  | 39 => ⟨S1x20, .i32⟩
  | 40 => ⟨S_, .i32⟩
  | 41 => ⟨S1x20, .i32⟩
  | 42 => ⟨S1x20, .i32⟩
  | 43 => ⟨S_, .i32⟩
  | 44 => ⟨S1x20, .i32⟩
  | 45 => ⟨S1x20, .i32⟩
  | 46 => ⟨S1x20, .i32⟩
  | 47 => ⟨S1x20, .i32⟩
  | 48 => ⟨S1x20, .i32⟩
  | 49 => ⟨S_, .i32⟩
  | 50 => ⟨S1x20, .i32⟩
  | 51 => ⟨S1x20, .i32⟩
  | 52 => ⟨S_, .i32⟩
  | 53 => ⟨S1x20, .i32⟩
  | 54 => ⟨S1x20, .i32⟩
  | 55 => ⟨S1x20, .i32⟩
  | 56 => ⟨S1x20, .i32⟩
  | 57 => ⟨S1x20, .i32⟩
  | 58 => ⟨S_, .i32⟩
  | 59 => ⟨S1x20, .i32⟩
  | 60 => ⟨S1x20, .i32⟩
  | 61 => ⟨S_, .i32⟩
  | 62 => ⟨S1x20, .i32⟩
  | 63 => ⟨S1x20, .i32⟩
  | 64 => ⟨S1x20, .i32⟩
  | 65 => ⟨S1x20, .i32⟩
  | 66 => ⟨S1x20, .i32⟩
  | 67 => ⟨S_, .i32⟩
  | 68 => ⟨S1x20, .i32⟩
  | 69 => ⟨S1x20, .i32⟩
  | 70 => ⟨S_, .i32⟩
  | 71 => ⟨S1x20, .i32⟩
  | 72 => ⟨S1x20, .i32⟩
  | 73 => ⟨S1x20, .i32⟩
  | 74 => ⟨S1x20, .i32⟩
  | 75 => ⟨S1x20, .i32⟩
  | 76 => ⟨S1x20, .i32⟩
  | 77 => ⟨S1x20, .i32⟩
  | 78 => ⟨S1x20, .i32⟩
  | 79 => ⟨S_, .i32⟩
  | 80 => ⟨S1x20, .i32⟩
  | 81 => ⟨S1x20, .i32⟩
  | 82 => ⟨S1x20, .i32⟩
  | 83 => ⟨S_, .i32⟩
  | 84 => ⟨S1x20, .i32⟩
  | 85 => ⟨S1x20, .i32⟩
  | 86 => ⟨S_, .i32⟩
  | 87 => ⟨S1x20, .i32⟩
  | 88 => ⟨S1x20, .i32⟩
  | 89 => ⟨S1x20, .i32⟩
  | 90 => ⟨S1x20, .i32⟩
  | 91 => ⟨S1x20, .i32⟩
  | 92 => ⟨S_, .i32⟩
  | 93 => ⟨S1x20, .i32⟩
  | 94 => ⟨S1x20, .i32⟩
  | 95 => ⟨S_, .i32⟩
  | 96 => ⟨S1x20, .i32⟩
  | 97 => ⟨S1x20, .i32⟩
  | 98 => ⟨S1x20, .i32⟩
  | 99 => ⟨S1x20, .i32⟩
  | 100 => ⟨S1x20, .i32⟩
  | 101 => ⟨S_, .i32⟩
  | 102 => ⟨S1x20, .i32⟩
  | 103 => ⟨S1x20, .i32⟩
  | 104 => ⟨S_, .i32⟩
  | 105 => ⟨S1x20, .i32⟩
  | 106 => ⟨S1x20, .i32⟩
  | 107 => ⟨S1x20, .i32⟩
  | 108 => ⟨S1x20, .i32⟩
  | 109 => ⟨S1x20, .i32⟩
  | 110 => ⟨S_, .i32⟩
  | 111 => ⟨S1x20, .i32⟩
  | 112 => ⟨S1x20, .i32⟩
  | 113 => ⟨S_, .i32⟩
  | 114 => ⟨S1x20, .i32⟩
  | 115 => ⟨S1x20, .i32⟩
  | 116 => ⟨S1x20, .i32⟩
  | 117 => ⟨S1x20, .i32⟩
  | 118 => ⟨S1x20, .i32⟩
  | 119 => ⟨S1x20, .i32⟩
  | 120 => ⟨S1x20, .i32⟩
  | 121 => ⟨S1x20, .i32⟩
  | 122 => ⟨S_, .i32⟩
  | 123 => ⟨S1x20, .i32⟩
  | 124 => ⟨S1x20, .i32⟩
  | 125 => ⟨S1x20, .i32⟩
  | 126 => ⟨S_, .i32⟩
  | 127 => ⟨S1x20, .i32⟩
  | _ => ⟨S16384x768, .f32⟩

abbrev hbmTy0_6 (i : Nat) : BufTy := match i % 128 with
  | 0 => ⟨S1x20, .i32⟩
  | 1 => ⟨S_, .i32⟩
  | 2 => ⟨S1x20, .i32⟩
  | 3 => ⟨S1x20, .i32⟩
  | 4 => ⟨S1x20, .f32⟩
  | 5 => ⟨S_, .f32⟩
  | 6 => ⟨S1x20, .f32⟩
  | 7 => ⟨S1x20, .f32⟩
  | 8 => ⟨S1x1, .f32⟩
  | 9 => ⟨S1x20, .f32⟩
  | 10 => ⟨S1x20, .f32⟩
  | 11 => ⟨S1x20, .f32⟩
  | 12 => ⟨S1x20, .f32⟩
  | 13 => ⟨S1x20, .f32⟩
  | 14 => ⟨S1x20, .f32⟩
  | 15 => ⟨S_, .i32⟩
  | 16 => ⟨S_, .f32⟩
  | 17 => ⟨S768x128, .f32⟩
  | 18 => ⟨S_, .i32⟩
  | 19 => ⟨S_, .f32⟩
  | 20 => ⟨S1x128, .f32⟩
  | 21 => ⟨S16384x128, .f32⟩
  | 22 => ⟨S16384x20, .f32⟩
  | _ => ⟨S16384x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16384x768, .f32⟩

abbrev bufTy : (tb : Table) → Fin (tcTables nBuf tb) → BufTy
  | .hbm, ⟨i, _⟩ => hbmTy i
  | .local _ .vmem, ⟨0, _⟩ => ⟨S1024x768, .f32⟩
  | .local _ .vmem, ⟨1, _⟩ => ⟨S1024x768, .f32⟩
  | .local _ .vmem, ⟨2, _⟩ => ⟨S768x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .smem, ⟨0, _⟩ => ⟨S1, .i32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c : Ref sig .tc := ⟨.hbm, 18, rfl⟩
abbrev main_call0_v5 : Ref sig .tc := ⟨.hbm, 19, rfl⟩
abbrev main_call0_v6 : Ref sig .tc := ⟨.hbm, 20, rfl⟩
abbrev main_call0_c_0 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_call0_v0 : Ref sig .tc := ⟨.hbm, 26, rfl⟩
abbrev main_call0_call0_c : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_c_0 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_c_1 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_call0_v12 : Ref sig .tc := ⟨.hbm, 41, rfl⟩
abbrev main_call0_call0_v13 : Ref sig .tc := ⟨.hbm, 42, rfl⟩
abbrev main_call0_call0_c_2 : Ref sig .tc := ⟨.hbm, 43, rfl⟩
abbrev main_call0_call0_v14 : Ref sig .tc := ⟨.hbm, 44, rfl⟩
abbrev main_call0_call0_v15 : Ref sig .tc := ⟨.hbm, 45, rfl⟩
abbrev main_call0_call0_c_3 : Ref sig .tc := ⟨.hbm, 46, rfl⟩
abbrev main_call0_call0_v16 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_c_4 : Ref sig .tc := ⟨.hbm, 52, rfl⟩
abbrev main_call0_call0_v21 : Ref sig .tc := ⟨.hbm, 53, rfl⟩
abbrev main_call0_call0_v22 : Ref sig .tc := ⟨.hbm, 54, rfl⟩
abbrev main_call0_call0_c_5 : Ref sig .tc := ⟨.hbm, 55, rfl⟩
abbrev main_call0_call0_v23 : Ref sig .tc := ⟨.hbm, 56, rfl⟩
abbrev main_call0_call0_v24 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_v27 : Ref sig .tc := ⟨.hbm, 60, rfl⟩
abbrev main_call0_call0_c_6 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_c_7 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_v32 : Ref sig .tc := ⟨.hbm, 67, rfl⟩
abbrev main_call0_call0_v33 : Ref sig .tc := ⟨.hbm, 68, rfl⟩
abbrev main_call0_call0_v34 : Ref sig .tc := ⟨.hbm, 69, rfl⟩
abbrev main_call0_call0_v35 : Ref sig .tc := ⟨.hbm, 70, rfl⟩
abbrev main_call0_call0_v36 : Ref sig .tc := ⟨.hbm, 71, rfl⟩
abbrev main_call0_call0_v37 : Ref sig .tc := ⟨.hbm, 72, rfl⟩
abbrev main_call0_call0_c_8 : Ref sig .tc := ⟨.hbm, 73, rfl⟩
abbrev main_call0_call0_v38 : Ref sig .tc := ⟨.hbm, 74, rfl⟩
abbrev main_call0_call0_v39 : Ref sig .tc := ⟨.hbm, 75, rfl⟩
abbrev main_call0_call0_v40 : Ref sig .tc := ⟨.hbm, 76, rfl⟩
abbrev main_call0_call0_c_9 : Ref sig .tc := ⟨.hbm, 77, rfl⟩
abbrev main_call0_call0_v41 : Ref sig .tc := ⟨.hbm, 78, rfl⟩
abbrev main_call0_call0_v42 : Ref sig .tc := ⟨.hbm, 79, rfl⟩
abbrev main_call0_call0_c_10 : Ref sig .tc := ⟨.hbm, 80, rfl⟩
abbrev main_call0_call0_v43 : Ref sig .tc := ⟨.hbm, 81, rfl⟩
abbrev main_call0_call0_v44 : Ref sig .tc := ⟨.hbm, 82, rfl⟩
abbrev main_call0_call0_v45 : Ref sig .tc := ⟨.hbm, 83, rfl⟩
abbrev main_call0_call0_v46 : Ref sig .tc := ⟨.hbm, 84, rfl⟩
abbrev main_call0_call0_v47 : Ref sig .tc := ⟨.hbm, 85, rfl⟩
abbrev main_call0_call0_c_11 : Ref sig .tc := ⟨.hbm, 86, rfl⟩
abbrev main_call0_call0_v48 : Ref sig .tc := ⟨.hbm, 87, rfl⟩
abbrev main_call0_call0_v49 : Ref sig .tc := ⟨.hbm, 88, rfl⟩
abbrev main_call0_call0_c_12 : Ref sig .tc := ⟨.hbm, 89, rfl⟩
abbrev main_call0_call0_v50 : Ref sig .tc := ⟨.hbm, 90, rfl⟩
abbrev main_call0_call0_v51 : Ref sig .tc := ⟨.hbm, 91, rfl⟩
abbrev main_call0_call0_v52 : Ref sig .tc := ⟨.hbm, 92, rfl⟩
abbrev main_call0_call0_v53 : Ref sig .tc := ⟨.hbm, 93, rfl⟩
abbrev main_call0_call0_v54 : Ref sig .tc := ⟨.hbm, 94, rfl⟩
abbrev main_call0_call0_c_13 : Ref sig .tc := ⟨.hbm, 95, rfl⟩
abbrev main_call0_call0_v55 : Ref sig .tc := ⟨.hbm, 96, rfl⟩
abbrev main_call0_call0_v56 : Ref sig .tc := ⟨.hbm, 97, rfl⟩
abbrev main_call0_call0_c_14 : Ref sig .tc := ⟨.hbm, 98, rfl⟩
abbrev main_call0_call0_v57 : Ref sig .tc := ⟨.hbm, 99, rfl⟩
abbrev main_call0_call0_v58 : Ref sig .tc := ⟨.hbm, 100, rfl⟩
abbrev main_call0_call0_v59 : Ref sig .tc := ⟨.hbm, 101, rfl⟩
abbrev main_call0_call0_v60 : Ref sig .tc := ⟨.hbm, 102, rfl⟩
abbrev main_call0_call0_v61 : Ref sig .tc := ⟨.hbm, 103, rfl⟩
abbrev main_call0_call0_c_15 : Ref sig .tc := ⟨.hbm, 104, rfl⟩
abbrev main_call0_call0_v62 : Ref sig .tc := ⟨.hbm, 105, rfl⟩
abbrev main_call0_call0_v63 : Ref sig .tc := ⟨.hbm, 106, rfl⟩
abbrev main_call0_call0_c_16 : Ref sig .tc := ⟨.hbm, 107, rfl⟩
abbrev main_call0_call0_v64 : Ref sig .tc := ⟨.hbm, 108, rfl⟩
abbrev main_call0_call0_v65 : Ref sig .tc := ⟨.hbm, 109, rfl⟩
abbrev main_call0_call0_v66 : Ref sig .tc := ⟨.hbm, 110, rfl⟩
abbrev main_call0_call0_v67 : Ref sig .tc := ⟨.hbm, 111, rfl⟩
abbrev main_call0_call0_v68 : Ref sig .tc := ⟨.hbm, 112, rfl⟩
abbrev main_call0_call0_v69 : Ref sig .tc := ⟨.hbm, 113, rfl⟩
abbrev main_call0_call0_v70 : Ref sig .tc := ⟨.hbm, 114, rfl⟩
abbrev main_call0_call0_v71 : Ref sig .tc := ⟨.hbm, 115, rfl⟩
abbrev main_call0_call0_c_17 : Ref sig .tc := ⟨.hbm, 116, rfl⟩
abbrev main_call0_call0_v72 : Ref sig .tc := ⟨.hbm, 117, rfl⟩
abbrev main_call0_call0_v73 : Ref sig .tc := ⟨.hbm, 118, rfl⟩
abbrev main_call0_call0_v74 : Ref sig .tc := ⟨.hbm, 119, rfl⟩
abbrev main_call0_call0_c_18 : Ref sig .tc := ⟨.hbm, 120, rfl⟩
abbrev main_call0_call0_v75 : Ref sig .tc := ⟨.hbm, 121, rfl⟩
abbrev main_call0_call0_v76 : Ref sig .tc := ⟨.hbm, 122, rfl⟩
abbrev main_call0_call0_c_19 : Ref sig .tc := ⟨.hbm, 123, rfl⟩
abbrev main_call0_call0_v77 : Ref sig .tc := ⟨.hbm, 124, rfl⟩
abbrev main_call0_call0_v78 : Ref sig .tc := ⟨.hbm, 125, rfl⟩
abbrev main_call0_call0_v79 : Ref sig .tc := ⟨.hbm, 126, rfl⟩
abbrev main_call0_call0_v80 : Ref sig .tc := ⟨.hbm, 127, rfl⟩
abbrev main_call0_call0_v81 : Ref sig .tc := ⟨.hbm, 128, rfl⟩
abbrev main_call0_call0_c_20 : Ref sig .tc := ⟨.hbm, 129, rfl⟩
abbrev main_call0_call0_v82 : Ref sig .tc := ⟨.hbm, 130, rfl⟩
abbrev main_call0_call0_v83 : Ref sig .tc := ⟨.hbm, 131, rfl⟩
abbrev main_call0_call0_c_21 : Ref sig .tc := ⟨.hbm, 132, rfl⟩
abbrev main_call0_call0_v84 : Ref sig .tc := ⟨.hbm, 133, rfl⟩
abbrev main_call0_call0_v85 : Ref sig .tc := ⟨.hbm, 134, rfl⟩
abbrev main_call0_call0_v86 : Ref sig .tc := ⟨.hbm, 135, rfl⟩
abbrev main_call0_call0_v87 : Ref sig .tc := ⟨.hbm, 136, rfl⟩
abbrev main_call0_call0_v88 : Ref sig .tc := ⟨.hbm, 137, rfl⟩
abbrev main_call0_call0_c_22 : Ref sig .tc := ⟨.hbm, 138, rfl⟩
abbrev main_call0_call0_v89 : Ref sig .tc := ⟨.hbm, 139, rfl⟩
abbrev main_call0_call0_v90 : Ref sig .tc := ⟨.hbm, 140, rfl⟩
abbrev main_call0_call0_c_23 : Ref sig .tc := ⟨.hbm, 141, rfl⟩
abbrev main_call0_call0_v91 : Ref sig .tc := ⟨.hbm, 142, rfl⟩
abbrev main_call0_call0_v92 : Ref sig .tc := ⟨.hbm, 143, rfl⟩
abbrev main_call0_call0_v93 : Ref sig .tc := ⟨.hbm, 144, rfl⟩
abbrev main_call0_call0_v94 : Ref sig .tc := ⟨.hbm, 145, rfl⟩
abbrev main_call0_call0_v95 : Ref sig .tc := ⟨.hbm, 146, rfl⟩
abbrev main_call0_call0_c_24 : Ref sig .tc := ⟨.hbm, 147, rfl⟩
abbrev main_call0_call0_v96 : Ref sig .tc := ⟨.hbm, 148, rfl⟩
abbrev main_call0_call0_v97 : Ref sig .tc := ⟨.hbm, 149, rfl⟩
abbrev main_call0_call0_c_25 : Ref sig .tc := ⟨.hbm, 150, rfl⟩
abbrev main_call0_call0_v98 : Ref sig .tc := ⟨.hbm, 151, rfl⟩
abbrev main_call0_call0_v99 : Ref sig .tc := ⟨.hbm, 152, rfl⟩
abbrev main_call0_call0_v100 : Ref sig .tc := ⟨.hbm, 153, rfl⟩
abbrev main_call0_call0_v101 : Ref sig .tc := ⟨.hbm, 154, rfl⟩
abbrev main_call0_call0_v102 : Ref sig .tc := ⟨.hbm, 155, rfl⟩
abbrev main_call0_call0_v103 : Ref sig .tc := ⟨.hbm, 156, rfl⟩
abbrev main_call0_call0_v104 : Ref sig .tc := ⟨.hbm, 157, rfl⟩
abbrev main_call0_call0_v105 : Ref sig .tc := ⟨.hbm, 158, rfl⟩
abbrev main_call0_call0_c_26 : Ref sig .tc := ⟨.hbm, 159, rfl⟩
abbrev main_call0_call0_v106 : Ref sig .tc := ⟨.hbm, 160, rfl⟩
abbrev main_call0_call0_v107 : Ref sig .tc := ⟨.hbm, 161, rfl⟩
abbrev main_call0_call0_v108 : Ref sig .tc := ⟨.hbm, 162, rfl⟩
abbrev main_call0_call0_c_27 : Ref sig .tc := ⟨.hbm, 163, rfl⟩
abbrev main_call0_call0_v109 : Ref sig .tc := ⟨.hbm, 164, rfl⟩
abbrev main_call0_call0_v110 : Ref sig .tc := ⟨.hbm, 165, rfl⟩
abbrev main_call0_call0_c_28 : Ref sig .tc := ⟨.hbm, 166, rfl⟩
abbrev main_call0_call0_v111 : Ref sig .tc := ⟨.hbm, 167, rfl⟩
abbrev main_call0_call0_v112 : Ref sig .tc := ⟨.hbm, 168, rfl⟩
abbrev main_call0_call0_v113 : Ref sig .tc := ⟨.hbm, 169, rfl⟩
abbrev main_call0_call0_v114 : Ref sig .tc := ⟨.hbm, 170, rfl⟩
abbrev main_call0_call0_v115 : Ref sig .tc := ⟨.hbm, 171, rfl⟩
abbrev main_call0_call0_c_29 : Ref sig .tc := ⟨.hbm, 172, rfl⟩
abbrev main_call0_call0_v116 : Ref sig .tc := ⟨.hbm, 173, rfl⟩
abbrev main_call0_call0_v117 : Ref sig .tc := ⟨.hbm, 174, rfl⟩
abbrev main_call0_call0_c_30 : Ref sig .tc := ⟨.hbm, 175, rfl⟩
abbrev main_call0_call0_v118 : Ref sig .tc := ⟨.hbm, 176, rfl⟩
abbrev main_call0_call0_v119 : Ref sig .tc := ⟨.hbm, 177, rfl⟩
abbrev main_call0_call0_v120 : Ref sig .tc := ⟨.hbm, 178, rfl⟩
abbrev main_call0_call0_v121 : Ref sig .tc := ⟨.hbm, 179, rfl⟩
abbrev main_call0_call0_v122 : Ref sig .tc := ⟨.hbm, 180, rfl⟩
abbrev main_call0_call0_c_31 : Ref sig .tc := ⟨.hbm, 181, rfl⟩
abbrev main_call0_call0_v123 : Ref sig .tc := ⟨.hbm, 182, rfl⟩
abbrev main_call0_call0_v124 : Ref sig .tc := ⟨.hbm, 183, rfl⟩
abbrev main_call0_call0_c_32 : Ref sig .tc := ⟨.hbm, 184, rfl⟩
abbrev main_call0_call0_v125 : Ref sig .tc := ⟨.hbm, 185, rfl⟩
abbrev main_call0_call0_v126 : Ref sig .tc := ⟨.hbm, 186, rfl⟩
abbrev main_call0_call0_v127 : Ref sig .tc := ⟨.hbm, 187, rfl⟩
abbrev main_call0_call0_v128 : Ref sig .tc := ⟨.hbm, 188, rfl⟩
abbrev main_call0_call0_v129 : Ref sig .tc := ⟨.hbm, 189, rfl⟩
abbrev main_call0_call0_c_33 : Ref sig .tc := ⟨.hbm, 190, rfl⟩
abbrev main_call0_call0_v130 : Ref sig .tc := ⟨.hbm, 191, rfl⟩
abbrev main_call0_call0_v131 : Ref sig .tc := ⟨.hbm, 192, rfl⟩
abbrev main_call0_call0_c_34 : Ref sig .tc := ⟨.hbm, 193, rfl⟩
abbrev main_call0_call0_v132 : Ref sig .tc := ⟨.hbm, 194, rfl⟩
abbrev main_call0_call0_v133 : Ref sig .tc := ⟨.hbm, 195, rfl⟩
abbrev main_call0_call0_v134 : Ref sig .tc := ⟨.hbm, 196, rfl⟩
abbrev main_call0_call0_v135 : Ref sig .tc := ⟨.hbm, 197, rfl⟩
abbrev main_call0_call0_v136 : Ref sig .tc := ⟨.hbm, 198, rfl⟩
abbrev main_call0_call0_v137 : Ref sig .tc := ⟨.hbm, 199, rfl⟩
abbrev main_call0_call0_v138 : Ref sig .tc := ⟨.hbm, 200, rfl⟩
abbrev main_call0_call0_v139 : Ref sig .tc := ⟨.hbm, 201, rfl⟩
abbrev main_call0_call0_c_35 : Ref sig .tc := ⟨.hbm, 202, rfl⟩
abbrev main_call0_call0_v140 : Ref sig .tc := ⟨.hbm, 203, rfl⟩
abbrev main_call0_call0_v141 : Ref sig .tc := ⟨.hbm, 204, rfl⟩
abbrev main_call0_call0_v142 : Ref sig .tc := ⟨.hbm, 205, rfl⟩
abbrev main_call0_call0_c_36 : Ref sig .tc := ⟨.hbm, 206, rfl⟩
abbrev main_call0_call0_v143 : Ref sig .tc := ⟨.hbm, 207, rfl⟩
abbrev main_call0_call0_v144 : Ref sig .tc := ⟨.hbm, 208, rfl⟩
abbrev main_call0_call0_c_37 : Ref sig .tc := ⟨.hbm, 209, rfl⟩
abbrev main_call0_call0_v145 : Ref sig .tc := ⟨.hbm, 210, rfl⟩
abbrev main_call0_call0_v146 : Ref sig .tc := ⟨.hbm, 211, rfl⟩
abbrev main_call0_call0_v147 : Ref sig .tc := ⟨.hbm, 212, rfl⟩
abbrev main_call0_call0_v148 : Ref sig .tc := ⟨.hbm, 213, rfl⟩
abbrev main_call0_call0_v149 : Ref sig .tc := ⟨.hbm, 214, rfl⟩
abbrev main_call0_call0_c_38 : Ref sig .tc := ⟨.hbm, 215, rfl⟩
abbrev main_call0_call0_v150 : Ref sig .tc := ⟨.hbm, 216, rfl⟩
abbrev main_call0_call0_v151 : Ref sig .tc := ⟨.hbm, 217, rfl⟩
abbrev main_call0_call0_c_39 : Ref sig .tc := ⟨.hbm, 218, rfl⟩
abbrev main_call0_call0_v152 : Ref sig .tc := ⟨.hbm, 219, rfl⟩
abbrev main_call0_call0_v153 : Ref sig .tc := ⟨.hbm, 220, rfl⟩
abbrev main_call0_call0_v154 : Ref sig .tc := ⟨.hbm, 221, rfl⟩
abbrev main_call0_call0_v155 : Ref sig .tc := ⟨.hbm, 222, rfl⟩
abbrev main_call0_call0_v156 : Ref sig .tc := ⟨.hbm, 223, rfl⟩
abbrev main_call0_call0_c_40 : Ref sig .tc := ⟨.hbm, 224, rfl⟩
abbrev main_call0_call0_v157 : Ref sig .tc := ⟨.hbm, 225, rfl⟩
abbrev main_call0_call0_v158 : Ref sig .tc := ⟨.hbm, 226, rfl⟩
abbrev main_call0_call0_c_41 : Ref sig .tc := ⟨.hbm, 227, rfl⟩
abbrev main_call0_call0_v159 : Ref sig .tc := ⟨.hbm, 228, rfl⟩
abbrev main_call0_call0_v160 : Ref sig .tc := ⟨.hbm, 229, rfl⟩
abbrev main_call0_call0_v161 : Ref sig .tc := ⟨.hbm, 230, rfl⟩
abbrev main_call0_call0_v162 : Ref sig .tc := ⟨.hbm, 231, rfl⟩
abbrev main_call0_call0_v163 : Ref sig .tc := ⟨.hbm, 232, rfl⟩
abbrev main_call0_call0_c_42 : Ref sig .tc := ⟨.hbm, 233, rfl⟩
abbrev main_call0_call0_v164 : Ref sig .tc := ⟨.hbm, 234, rfl⟩
abbrev main_call0_call0_v165 : Ref sig .tc := ⟨.hbm, 235, rfl⟩
abbrev main_call0_call0_c_43 : Ref sig .tc := ⟨.hbm, 236, rfl⟩
abbrev main_call0_call0_v166 : Ref sig .tc := ⟨.hbm, 237, rfl⟩
abbrev main_call0_call0_v167 : Ref sig .tc := ⟨.hbm, 238, rfl⟩
abbrev main_call0_call0_v168 : Ref sig .tc := ⟨.hbm, 239, rfl⟩
abbrev main_call0_call0_v169 : Ref sig .tc := ⟨.hbm, 240, rfl⟩
abbrev main_call0_call0_v170 : Ref sig .tc := ⟨.hbm, 241, rfl⟩
abbrev main_call0_v11_0 : Ref sig .tc := ⟨.hbm, 242, rfl⟩
abbrev main_call0_call0_v172 : Ref sig .tc := ⟨.hbm, 243, rfl⟩
abbrev main_call0_call0_v173 : Ref sig .tc := ⟨.hbm, 244, rfl⟩
abbrev main_call0_call0_c_44 : Ref sig .tc := ⟨.hbm, 245, rfl⟩
abbrev main_call0_call0_v174 : Ref sig .tc := ⟨.hbm, 246, rfl⟩
abbrev main_call0_v11_1 : Ref sig .tc := ⟨.hbm, 247, rfl⟩
abbrev main_call0_v12 : Ref sig .tc := ⟨.hbm, 248, rfl⟩
abbrev main_call0_v13 : Ref sig .tc := ⟨.hbm, 249, rfl⟩
abbrev main_v7 : Ref sig .tc := ⟨.hbm, 250, rfl⟩
abbrev main_v8 : Ref sig .tc := ⟨.hbm, 251, rfl⟩
abbrev main_v9 : Ref sig .tc := ⟨.hbm, 252, rfl⟩
abbrev main_v10 : Ref sig .tc := ⟨.hbm, 253, rfl⟩
abbrev main_v11 : Ref sig .tc := ⟨.hbm, 254, rfl⟩
abbrev main_cst : Ref sig .tc := ⟨.hbm, 255, rfl⟩
abbrev main_cst_3 : Ref sig .tc := ⟨.hbm, 256, rfl⟩
abbrev main_call1_v0 : Ref sig .tc := ⟨.hbm, 257, rfl⟩
abbrev main_call1_v1 : Ref sig .tc := ⟨.hbm, 258, rfl⟩
abbrev main_call1_v2 : Ref sig .tc := ⟨.hbm, 259, rfl⟩
abbrev main_call1_v3 : Ref sig .tc := ⟨.hbm, 260, rfl⟩
abbrev main_call1_v4 : Ref sig .tc := ⟨.hbm, 261, rfl⟩
abbrev main_call1_v5 : Ref sig .tc := ⟨.hbm, 262, rfl⟩
abbrev main_call1_v6 : Ref sig .tc := ⟨.hbm, 263, rfl⟩
abbrev main_call1_v7 : Ref sig .tc := ⟨.hbm, 264, rfl⟩
abbrev main_call1_v8 : Ref sig .tc := ⟨.hbm, 265, rfl⟩
abbrev main_call1_v9 : Ref sig .tc := ⟨.hbm, 266, rfl⟩
abbrev main_call1_c : Ref sig .tc := ⟨.hbm, 267, rfl⟩
abbrev main_call1_v10 : Ref sig .tc := ⟨.hbm, 268, rfl⟩
abbrev main_call1_v11 : Ref sig .tc := ⟨.hbm, 269, rfl⟩
abbrev main_call1_c_0 : Ref sig .tc := ⟨.hbm, 270, rfl⟩
abbrev main_call1_v12 : Ref sig .tc := ⟨.hbm, 271, rfl⟩
abbrev main_call1_v13 : Ref sig .tc := ⟨.hbm, 272, rfl⟩
abbrev main_call1_v14 : Ref sig .tc := ⟨.hbm, 273, rfl⟩
abbrev main_call1_c_1 : Ref sig .tc := ⟨.hbm, 274, rfl⟩
abbrev main_call1_v15 : Ref sig .tc := ⟨.hbm, 275, rfl⟩
abbrev main_call1_v16 : Ref sig .tc := ⟨.hbm, 276, rfl⟩
abbrev main_call1_v17 : Ref sig .tc := ⟨.hbm, 277, rfl⟩
abbrev main_call1_v18 : Ref sig .tc := ⟨.hbm, 278, rfl⟩
abbrev main_call1_call0_v0 : Ref sig .tc := ⟨.hbm, 279, rfl⟩
abbrev main_call1_call0_c : Ref sig .tc := ⟨.hbm, 280, rfl⟩
abbrev main_call1_call0_v1 : Ref sig .tc := ⟨.hbm, 281, rfl⟩
abbrev main_call1_call0_v2 : Ref sig .tc := ⟨.hbm, 282, rfl⟩
abbrev main_call1_call0_v3 : Ref sig .tc := ⟨.hbm, 283, rfl⟩
abbrev main_call1_call0_v4 : Ref sig .tc := ⟨.hbm, 284, rfl⟩
abbrev main_call1_call0_v5 : Ref sig .tc := ⟨.hbm, 285, rfl⟩
abbrev main_call1_call0_v6 : Ref sig .tc := ⟨.hbm, 286, rfl⟩
abbrev main_call1_call0_c_0 : Ref sig .tc := ⟨.hbm, 287, rfl⟩
abbrev main_call1_call0_v7 : Ref sig .tc := ⟨.hbm, 288, rfl⟩
abbrev main_call1_call0_v8 : Ref sig .tc := ⟨.hbm, 289, rfl⟩
abbrev main_call1_call0_c_1 : Ref sig .tc := ⟨.hbm, 290, rfl⟩
abbrev main_call1_call0_v9 : Ref sig .tc := ⟨.hbm, 291, rfl⟩
abbrev main_call1_call0_v10 : Ref sig .tc := ⟨.hbm, 292, rfl⟩
abbrev main_call1_call0_v11 : Ref sig .tc := ⟨.hbm, 293, rfl⟩
abbrev main_call1_call0_v12 : Ref sig .tc := ⟨.hbm, 294, rfl⟩
abbrev main_call1_call0_v13 : Ref sig .tc := ⟨.hbm, 295, rfl⟩
abbrev main_call1_call0_c_2 : Ref sig .tc := ⟨.hbm, 296, rfl⟩
abbrev main_call1_call0_v14 : Ref sig .tc := ⟨.hbm, 297, rfl⟩
abbrev main_call1_call0_v15 : Ref sig .tc := ⟨.hbm, 298, rfl⟩
abbrev main_call1_call0_c_3 : Ref sig .tc := ⟨.hbm, 299, rfl⟩
abbrev main_call1_call0_v16 : Ref sig .tc := ⟨.hbm, 300, rfl⟩
abbrev main_call1_call0_v17 : Ref sig .tc := ⟨.hbm, 301, rfl⟩
abbrev main_call1_call0_v18 : Ref sig .tc := ⟨.hbm, 302, rfl⟩
abbrev main_call1_call0_v19 : Ref sig .tc := ⟨.hbm, 303, rfl⟩
abbrev main_call1_call0_v20 : Ref sig .tc := ⟨.hbm, 304, rfl⟩
abbrev main_call1_call0_c_4 : Ref sig .tc := ⟨.hbm, 305, rfl⟩
abbrev main_call1_call0_v21 : Ref sig .tc := ⟨.hbm, 306, rfl⟩
abbrev main_call1_call0_v22 : Ref sig .tc := ⟨.hbm, 307, rfl⟩
abbrev main_call1_call0_c_5 : Ref sig .tc := ⟨.hbm, 308, rfl⟩
abbrev main_call1_call0_v23 : Ref sig .tc := ⟨.hbm, 309, rfl⟩
abbrev main_call1_call0_v24 : Ref sig .tc := ⟨.hbm, 310, rfl⟩
abbrev main_call1_call0_v25 : Ref sig .tc := ⟨.hbm, 311, rfl⟩
abbrev main_call1_call0_v26 : Ref sig .tc := ⟨.hbm, 312, rfl⟩
abbrev main_call1_call0_v27 : Ref sig .tc := ⟨.hbm, 313, rfl⟩
abbrev main_call1_call0_c_6 : Ref sig .tc := ⟨.hbm, 314, rfl⟩
abbrev main_call1_call0_v28 : Ref sig .tc := ⟨.hbm, 315, rfl⟩
abbrev main_call1_call0_v29 : Ref sig .tc := ⟨.hbm, 316, rfl⟩
abbrev main_call1_call0_c_7 : Ref sig .tc := ⟨.hbm, 317, rfl⟩
abbrev main_call1_call0_v30 : Ref sig .tc := ⟨.hbm, 318, rfl⟩
abbrev main_call1_call0_v31 : Ref sig .tc := ⟨.hbm, 319, rfl⟩
abbrev main_call1_call0_v32 : Ref sig .tc := ⟨.hbm, 320, rfl⟩
abbrev main_call1_call0_v33 : Ref sig .tc := ⟨.hbm, 321, rfl⟩
abbrev main_call1_call0_v34 : Ref sig .tc := ⟨.hbm, 322, rfl⟩
abbrev main_call1_call0_v35 : Ref sig .tc := ⟨.hbm, 323, rfl⟩
abbrev main_call1_call0_v36 : Ref sig .tc := ⟨.hbm, 324, rfl⟩
abbrev main_call1_call0_v37 : Ref sig .tc := ⟨.hbm, 325, rfl⟩
abbrev main_call1_call0_c_8 : Ref sig .tc := ⟨.hbm, 326, rfl⟩
abbrev main_call1_call0_v38 : Ref sig .tc := ⟨.hbm, 327, rfl⟩
abbrev main_call1_call0_v39 : Ref sig .tc := ⟨.hbm, 328, rfl⟩
abbrev main_call1_call0_v40 : Ref sig .tc := ⟨.hbm, 329, rfl⟩
abbrev main_call1_call0_c_9 : Ref sig .tc := ⟨.hbm, 330, rfl⟩
abbrev main_call1_call0_v41 : Ref sig .tc := ⟨.hbm, 331, rfl⟩
abbrev main_call1_call0_v42 : Ref sig .tc := ⟨.hbm, 332, rfl⟩
abbrev main_call1_call0_c_10 : Ref sig .tc := ⟨.hbm, 333, rfl⟩
abbrev main_call1_call0_v43 : Ref sig .tc := ⟨.hbm, 334, rfl⟩
abbrev main_call1_call0_v44 : Ref sig .tc := ⟨.hbm, 335, rfl⟩
abbrev main_call1_call0_v45 : Ref sig .tc := ⟨.hbm, 336, rfl⟩
abbrev main_call1_call0_v46 : Ref sig .tc := ⟨.hbm, 337, rfl⟩
abbrev main_call1_call0_v47 : Ref sig .tc := ⟨.hbm, 338, rfl⟩
abbrev main_call1_call0_c_11 : Ref sig .tc := ⟨.hbm, 339, rfl⟩
abbrev main_call1_call0_v48 : Ref sig .tc := ⟨.hbm, 340, rfl⟩
abbrev main_call1_call0_v49 : Ref sig .tc := ⟨.hbm, 341, rfl⟩
abbrev main_call1_call0_c_12 : Ref sig .tc := ⟨.hbm, 342, rfl⟩
abbrev main_call1_call0_v50 : Ref sig .tc := ⟨.hbm, 343, rfl⟩
abbrev main_call1_call0_v51 : Ref sig .tc := ⟨.hbm, 344, rfl⟩
abbrev main_call1_call0_v52 : Ref sig .tc := ⟨.hbm, 345, rfl⟩
abbrev main_call1_call0_v53 : Ref sig .tc := ⟨.hbm, 346, rfl⟩
abbrev main_call1_call0_v54 : Ref sig .tc := ⟨.hbm, 347, rfl⟩
abbrev main_call1_call0_c_13 : Ref sig .tc := ⟨.hbm, 348, rfl⟩
abbrev main_call1_call0_v55 : Ref sig .tc := ⟨.hbm, 349, rfl⟩
abbrev main_call1_call0_v56 : Ref sig .tc := ⟨.hbm, 350, rfl⟩
abbrev main_call1_call0_c_14 : Ref sig .tc := ⟨.hbm, 351, rfl⟩
abbrev main_call1_call0_v57 : Ref sig .tc := ⟨.hbm, 352, rfl⟩
abbrev main_call1_call0_v58 : Ref sig .tc := ⟨.hbm, 353, rfl⟩
abbrev main_call1_call0_v59 : Ref sig .tc := ⟨.hbm, 354, rfl⟩
abbrev main_call1_call0_v60 : Ref sig .tc := ⟨.hbm, 355, rfl⟩
abbrev main_call1_call0_v61 : Ref sig .tc := ⟨.hbm, 356, rfl⟩
abbrev main_call1_call0_c_15 : Ref sig .tc := ⟨.hbm, 357, rfl⟩
abbrev main_call1_call0_v62 : Ref sig .tc := ⟨.hbm, 358, rfl⟩
abbrev main_call1_call0_v63 : Ref sig .tc := ⟨.hbm, 359, rfl⟩
abbrev main_call1_call0_c_16 : Ref sig .tc := ⟨.hbm, 360, rfl⟩
abbrev main_call1_call0_v64 : Ref sig .tc := ⟨.hbm, 361, rfl⟩
abbrev main_call1_call0_v65 : Ref sig .tc := ⟨.hbm, 362, rfl⟩
abbrev main_call1_call0_v66 : Ref sig .tc := ⟨.hbm, 363, rfl⟩
abbrev main_call1_call0_v67 : Ref sig .tc := ⟨.hbm, 364, rfl⟩
abbrev main_call1_call0_v68 : Ref sig .tc := ⟨.hbm, 365, rfl⟩
abbrev main_call1_call0_v69 : Ref sig .tc := ⟨.hbm, 366, rfl⟩
abbrev main_call1_call0_v70 : Ref sig .tc := ⟨.hbm, 367, rfl⟩
abbrev main_call1_call0_v71 : Ref sig .tc := ⟨.hbm, 368, rfl⟩
abbrev main_call1_call0_c_17 : Ref sig .tc := ⟨.hbm, 369, rfl⟩
abbrev main_call1_call0_v72 : Ref sig .tc := ⟨.hbm, 370, rfl⟩
abbrev main_call1_call0_v73 : Ref sig .tc := ⟨.hbm, 371, rfl⟩
abbrev main_call1_call0_v74 : Ref sig .tc := ⟨.hbm, 372, rfl⟩
abbrev main_call1_call0_c_18 : Ref sig .tc := ⟨.hbm, 373, rfl⟩
abbrev main_call1_call0_v75 : Ref sig .tc := ⟨.hbm, 374, rfl⟩
abbrev main_call1_call0_v76 : Ref sig .tc := ⟨.hbm, 375, rfl⟩
abbrev main_call1_call0_c_19 : Ref sig .tc := ⟨.hbm, 376, rfl⟩
abbrev main_call1_call0_v77 : Ref sig .tc := ⟨.hbm, 377, rfl⟩
abbrev main_call1_call0_v78 : Ref sig .tc := ⟨.hbm, 378, rfl⟩
abbrev main_call1_call0_v79 : Ref sig .tc := ⟨.hbm, 379, rfl⟩
abbrev main_call1_call0_v80 : Ref sig .tc := ⟨.hbm, 380, rfl⟩
abbrev main_call1_call0_v81 : Ref sig .tc := ⟨.hbm, 381, rfl⟩
abbrev main_call1_call0_c_20 : Ref sig .tc := ⟨.hbm, 382, rfl⟩
abbrev main_call1_call0_v82 : Ref sig .tc := ⟨.hbm, 383, rfl⟩
abbrev main_call1_call0_v83 : Ref sig .tc := ⟨.hbm, 384, rfl⟩
abbrev main_call1_call0_c_21 : Ref sig .tc := ⟨.hbm, 385, rfl⟩
abbrev main_call1_call0_v84 : Ref sig .tc := ⟨.hbm, 386, rfl⟩
abbrev main_call1_call0_v85 : Ref sig .tc := ⟨.hbm, 387, rfl⟩
abbrev main_call1_call0_v86 : Ref sig .tc := ⟨.hbm, 388, rfl⟩
abbrev main_call1_call0_v87 : Ref sig .tc := ⟨.hbm, 389, rfl⟩
abbrev main_call1_call0_v88 : Ref sig .tc := ⟨.hbm, 390, rfl⟩
abbrev main_call1_call0_c_22 : Ref sig .tc := ⟨.hbm, 391, rfl⟩
abbrev main_call1_call0_v89 : Ref sig .tc := ⟨.hbm, 392, rfl⟩
abbrev main_call1_call0_v90 : Ref sig .tc := ⟨.hbm, 393, rfl⟩
abbrev main_call1_call0_c_23 : Ref sig .tc := ⟨.hbm, 394, rfl⟩
abbrev main_call1_call0_v91 : Ref sig .tc := ⟨.hbm, 395, rfl⟩
abbrev main_call1_call0_v92 : Ref sig .tc := ⟨.hbm, 396, rfl⟩
abbrev main_call1_call0_v93 : Ref sig .tc := ⟨.hbm, 397, rfl⟩
abbrev main_call1_call0_v94 : Ref sig .tc := ⟨.hbm, 398, rfl⟩
abbrev main_call1_call0_v95 : Ref sig .tc := ⟨.hbm, 399, rfl⟩
abbrev main_call1_call0_c_24 : Ref sig .tc := ⟨.hbm, 400, rfl⟩
abbrev main_call1_call0_v96 : Ref sig .tc := ⟨.hbm, 401, rfl⟩
abbrev main_call1_call0_v97 : Ref sig .tc := ⟨.hbm, 402, rfl⟩
abbrev main_call1_call0_c_25 : Ref sig .tc := ⟨.hbm, 403, rfl⟩
abbrev main_call1_call0_v98 : Ref sig .tc := ⟨.hbm, 404, rfl⟩
abbrev main_call1_call0_v99 : Ref sig .tc := ⟨.hbm, 405, rfl⟩
abbrev main_call1_call0_v100 : Ref sig .tc := ⟨.hbm, 406, rfl⟩
abbrev main_call1_call0_v101 : Ref sig .tc := ⟨.hbm, 407, rfl⟩
abbrev main_call1_call0_v102 : Ref sig .tc := ⟨.hbm, 408, rfl⟩
abbrev main_call1_call0_v103 : Ref sig .tc := ⟨.hbm, 409, rfl⟩
abbrev main_call1_call0_v104 : Ref sig .tc := ⟨.hbm, 410, rfl⟩
abbrev main_call1_call0_v105 : Ref sig .tc := ⟨.hbm, 411, rfl⟩
abbrev main_call1_call0_c_26 : Ref sig .tc := ⟨.hbm, 412, rfl⟩
abbrev main_call1_call0_v106 : Ref sig .tc := ⟨.hbm, 413, rfl⟩
abbrev main_call1_call0_v107 : Ref sig .tc := ⟨.hbm, 414, rfl⟩
abbrev main_call1_call0_v108 : Ref sig .tc := ⟨.hbm, 415, rfl⟩
abbrev main_call1_call0_c_27 : Ref sig .tc := ⟨.hbm, 416, rfl⟩
abbrev main_call1_call0_v109 : Ref sig .tc := ⟨.hbm, 417, rfl⟩
abbrev main_call1_call0_v110 : Ref sig .tc := ⟨.hbm, 418, rfl⟩
abbrev main_call1_call0_c_28 : Ref sig .tc := ⟨.hbm, 419, rfl⟩
abbrev main_call1_call0_v111 : Ref sig .tc := ⟨.hbm, 420, rfl⟩
abbrev main_call1_call0_v112 : Ref sig .tc := ⟨.hbm, 421, rfl⟩
abbrev main_call1_call0_v113 : Ref sig .tc := ⟨.hbm, 422, rfl⟩
abbrev main_call1_call0_v114 : Ref sig .tc := ⟨.hbm, 423, rfl⟩
abbrev main_call1_call0_v115 : Ref sig .tc := ⟨.hbm, 424, rfl⟩
abbrev main_call1_call0_c_29 : Ref sig .tc := ⟨.hbm, 425, rfl⟩
abbrev main_call1_call0_v116 : Ref sig .tc := ⟨.hbm, 426, rfl⟩
abbrev main_call1_call0_v117 : Ref sig .tc := ⟨.hbm, 427, rfl⟩
abbrev main_call1_call0_c_30 : Ref sig .tc := ⟨.hbm, 428, rfl⟩
abbrev main_call1_call0_v118 : Ref sig .tc := ⟨.hbm, 429, rfl⟩
abbrev main_call1_call0_v119 : Ref sig .tc := ⟨.hbm, 430, rfl⟩
abbrev main_call1_call0_v120 : Ref sig .tc := ⟨.hbm, 431, rfl⟩
abbrev main_call1_call0_v121 : Ref sig .tc := ⟨.hbm, 432, rfl⟩
abbrev main_call1_call0_v122 : Ref sig .tc := ⟨.hbm, 433, rfl⟩
abbrev main_call1_call0_c_31 : Ref sig .tc := ⟨.hbm, 434, rfl⟩
abbrev main_call1_call0_v123 : Ref sig .tc := ⟨.hbm, 435, rfl⟩
abbrev main_call1_call0_v124 : Ref sig .tc := ⟨.hbm, 436, rfl⟩
abbrev main_call1_call0_c_32 : Ref sig .tc := ⟨.hbm, 437, rfl⟩
abbrev main_call1_call0_v125 : Ref sig .tc := ⟨.hbm, 438, rfl⟩
abbrev main_call1_call0_v126 : Ref sig .tc := ⟨.hbm, 439, rfl⟩
abbrev main_call1_call0_v127 : Ref sig .tc := ⟨.hbm, 440, rfl⟩
abbrev main_call1_call0_v128 : Ref sig .tc := ⟨.hbm, 441, rfl⟩
abbrev main_call1_call0_v129 : Ref sig .tc := ⟨.hbm, 442, rfl⟩
abbrev main_call1_call0_c_33 : Ref sig .tc := ⟨.hbm, 443, rfl⟩
abbrev main_call1_call0_v130 : Ref sig .tc := ⟨.hbm, 444, rfl⟩
abbrev main_call1_call0_v131 : Ref sig .tc := ⟨.hbm, 445, rfl⟩
abbrev main_call1_call0_c_34 : Ref sig .tc := ⟨.hbm, 446, rfl⟩
abbrev main_call1_call0_v132 : Ref sig .tc := ⟨.hbm, 447, rfl⟩
abbrev main_call1_call0_v133 : Ref sig .tc := ⟨.hbm, 448, rfl⟩
abbrev main_call1_call0_v134 : Ref sig .tc := ⟨.hbm, 449, rfl⟩
abbrev main_call1_call0_v135 : Ref sig .tc := ⟨.hbm, 450, rfl⟩
abbrev main_call1_call0_v136 : Ref sig .tc := ⟨.hbm, 451, rfl⟩
abbrev main_call1_call0_v137 : Ref sig .tc := ⟨.hbm, 452, rfl⟩
abbrev main_call1_call0_v138 : Ref sig .tc := ⟨.hbm, 453, rfl⟩
abbrev main_call1_call0_v139 : Ref sig .tc := ⟨.hbm, 454, rfl⟩
abbrev main_call1_call0_c_35 : Ref sig .tc := ⟨.hbm, 455, rfl⟩
abbrev main_call1_call0_v140 : Ref sig .tc := ⟨.hbm, 456, rfl⟩
abbrev main_call1_call0_v141 : Ref sig .tc := ⟨.hbm, 457, rfl⟩
abbrev main_call1_call0_v142 : Ref sig .tc := ⟨.hbm, 458, rfl⟩
abbrev main_call1_call0_c_36 : Ref sig .tc := ⟨.hbm, 459, rfl⟩
abbrev main_call1_call0_v143 : Ref sig .tc := ⟨.hbm, 460, rfl⟩
abbrev main_call1_call0_v144 : Ref sig .tc := ⟨.hbm, 461, rfl⟩
abbrev main_call1_call0_c_37 : Ref sig .tc := ⟨.hbm, 462, rfl⟩
abbrev main_call1_call0_v145 : Ref sig .tc := ⟨.hbm, 463, rfl⟩
abbrev main_call1_call0_v146 : Ref sig .tc := ⟨.hbm, 464, rfl⟩
abbrev main_call1_call0_v147 : Ref sig .tc := ⟨.hbm, 465, rfl⟩
abbrev main_call1_call0_v148 : Ref sig .tc := ⟨.hbm, 466, rfl⟩
abbrev main_call1_call0_v149 : Ref sig .tc := ⟨.hbm, 467, rfl⟩
abbrev main_call1_call0_c_38 : Ref sig .tc := ⟨.hbm, 468, rfl⟩
abbrev main_call1_call0_v150 : Ref sig .tc := ⟨.hbm, 469, rfl⟩
abbrev main_call1_call0_v151 : Ref sig .tc := ⟨.hbm, 470, rfl⟩
abbrev main_call1_call0_c_39 : Ref sig .tc := ⟨.hbm, 471, rfl⟩
abbrev main_call1_call0_v152 : Ref sig .tc := ⟨.hbm, 472, rfl⟩
abbrev main_call1_call0_v153 : Ref sig .tc := ⟨.hbm, 473, rfl⟩
abbrev main_call1_call0_v154 : Ref sig .tc := ⟨.hbm, 474, rfl⟩
abbrev main_call1_call0_v155 : Ref sig .tc := ⟨.hbm, 475, rfl⟩
abbrev main_call1_call0_v156 : Ref sig .tc := ⟨.hbm, 476, rfl⟩
abbrev main_call1_call0_c_40 : Ref sig .tc := ⟨.hbm, 477, rfl⟩
abbrev main_call1_call0_v157 : Ref sig .tc := ⟨.hbm, 478, rfl⟩
abbrev main_call1_call0_v158 : Ref sig .tc := ⟨.hbm, 479, rfl⟩
abbrev main_call1_call0_c_41 : Ref sig .tc := ⟨.hbm, 480, rfl⟩
abbrev main_call1_call0_v159 : Ref sig .tc := ⟨.hbm, 481, rfl⟩
abbrev main_call1_call0_v160 : Ref sig .tc := ⟨.hbm, 482, rfl⟩
abbrev main_call1_call0_v161 : Ref sig .tc := ⟨.hbm, 483, rfl⟩
abbrev main_call1_call0_v162 : Ref sig .tc := ⟨.hbm, 484, rfl⟩
abbrev main_call1_call0_v163 : Ref sig .tc := ⟨.hbm, 485, rfl⟩
abbrev main_call1_call0_c_42 : Ref sig .tc := ⟨.hbm, 486, rfl⟩
abbrev main_call1_call0_v164 : Ref sig .tc := ⟨.hbm, 487, rfl⟩
abbrev main_call1_call0_v165 : Ref sig .tc := ⟨.hbm, 488, rfl⟩
abbrev main_call1_call0_c_43 : Ref sig .tc := ⟨.hbm, 489, rfl⟩
abbrev main_call1_call0_v166 : Ref sig .tc := ⟨.hbm, 490, rfl⟩
abbrev main_call1_call0_v167 : Ref sig .tc := ⟨.hbm, 491, rfl⟩
abbrev main_call1_call0_v168 : Ref sig .tc := ⟨.hbm, 492, rfl⟩
abbrev main_call1_call0_v169 : Ref sig .tc := ⟨.hbm, 493, rfl⟩
abbrev main_call1_call0_v170 : Ref sig .tc := ⟨.hbm, 494, rfl⟩
abbrev main_call1_v19_0 : Ref sig .tc := ⟨.hbm, 495, rfl⟩
abbrev main_call1_call0_v172 : Ref sig .tc := ⟨.hbm, 496, rfl⟩
abbrev main_call1_call0_v173 : Ref sig .tc := ⟨.hbm, 497, rfl⟩
abbrev main_call1_call0_c_44 : Ref sig .tc := ⟨.hbm, 498, rfl⟩
abbrev main_call1_call0_v174 : Ref sig .tc := ⟨.hbm, 499, rfl⟩
abbrev main_call1_v19_1 : Ref sig .tc := ⟨.hbm, 500, rfl⟩
abbrev main_call1_v20 : Ref sig .tc := ⟨.hbm, 501, rfl⟩
abbrev main_call1_c_2 : Ref sig .tc := ⟨.hbm, 502, rfl⟩
abbrev main_call1_v21 : Ref sig .tc := ⟨.hbm, 503, rfl⟩
abbrev main_call1_v22 : Ref sig .tc := ⟨.hbm, 504, rfl⟩
abbrev main_call1_c_3 : Ref sig .tc := ⟨.hbm, 505, rfl⟩
abbrev main_call1_v23 : Ref sig .tc := ⟨.hbm, 506, rfl⟩
abbrev main_call1_v24 : Ref sig .tc := ⟨.hbm, 507, rfl⟩
abbrev main_call1_v25 : Ref sig .tc := ⟨.hbm, 508, rfl⟩
abbrev main_call1_cst : Ref sig .tc := ⟨.hbm, 509, rfl⟩
abbrev main_call1_v26 : Ref sig .tc := ⟨.hbm, 510, rfl⟩
abbrev main_call1_v27 : Ref sig .tc := ⟨.hbm, 511, rfl⟩
abbrev main_call1_v28 : Ref sig .tc := ⟨.hbm, 512, rfl⟩
abbrev main_call1_v29 : Ref sig .tc := ⟨.hbm, 513, rfl⟩
abbrev main_call1_v30 : Ref sig .tc := ⟨.hbm, 514, rfl⟩
abbrev main_call1_v31 : Ref sig .tc := ⟨.hbm, 515, rfl⟩
abbrev main_call1_v32 : Ref sig .tc := ⟨.hbm, 516, rfl⟩
abbrev main_call1_v33 : Ref sig .tc := ⟨.hbm, 517, rfl⟩
abbrev main_v12 : Ref sig .tc := ⟨.hbm, 518, rfl⟩
abbrev main_cst_4 : Ref sig .tc := ⟨.hbm, 519, rfl⟩
abbrev main_cst_5 : Ref sig .tc := ⟨.hbm, 520, rfl⟩
abbrev main_call2_v0 : Ref sig .tc := ⟨.hbm, 521, rfl⟩
abbrev main_call2_v1 : Ref sig .tc := ⟨.hbm, 522, rfl⟩
abbrev main_call2_v2 : Ref sig .tc := ⟨.hbm, 523, rfl⟩
abbrev main_call2_v3 : Ref sig .tc := ⟨.hbm, 524, rfl⟩
abbrev main_call2_v4 : Ref sig .tc := ⟨.hbm, 525, rfl⟩
abbrev main_call2_v5 : Ref sig .tc := ⟨.hbm, 526, rfl⟩
abbrev main_call2_v6 : Ref sig .tc := ⟨.hbm, 527, rfl⟩
abbrev main_call2_v7 : Ref sig .tc := ⟨.hbm, 528, rfl⟩
abbrev main_call2_v8 : Ref sig .tc := ⟨.hbm, 529, rfl⟩
abbrev main_call2_v9 : Ref sig .tc := ⟨.hbm, 530, rfl⟩
abbrev main_call2_c : Ref sig .tc := ⟨.hbm, 531, rfl⟩
abbrev main_call2_v10 : Ref sig .tc := ⟨.hbm, 532, rfl⟩
abbrev main_call2_v11 : Ref sig .tc := ⟨.hbm, 533, rfl⟩
abbrev main_call2_c_0 : Ref sig .tc := ⟨.hbm, 534, rfl⟩
abbrev main_call2_v12 : Ref sig .tc := ⟨.hbm, 535, rfl⟩
abbrev main_call2_v13 : Ref sig .tc := ⟨.hbm, 536, rfl⟩
abbrev main_call2_v14 : Ref sig .tc := ⟨.hbm, 537, rfl⟩
abbrev main_call2_c_1 : Ref sig .tc := ⟨.hbm, 538, rfl⟩
abbrev main_call2_v15 : Ref sig .tc := ⟨.hbm, 539, rfl⟩
abbrev main_call2_v16 : Ref sig .tc := ⟨.hbm, 540, rfl⟩
abbrev main_call2_v17 : Ref sig .tc := ⟨.hbm, 541, rfl⟩
abbrev main_call2_v18 : Ref sig .tc := ⟨.hbm, 542, rfl⟩
abbrev main_call2_call0_v0 : Ref sig .tc := ⟨.hbm, 543, rfl⟩
abbrev main_call2_call0_c : Ref sig .tc := ⟨.hbm, 544, rfl⟩
abbrev main_call2_call0_v1 : Ref sig .tc := ⟨.hbm, 545, rfl⟩
abbrev main_call2_call0_v2 : Ref sig .tc := ⟨.hbm, 546, rfl⟩
abbrev main_call2_call0_v3 : Ref sig .tc := ⟨.hbm, 547, rfl⟩
abbrev main_call2_call0_v4 : Ref sig .tc := ⟨.hbm, 548, rfl⟩
abbrev main_call2_call0_v5 : Ref sig .tc := ⟨.hbm, 549, rfl⟩
abbrev main_call2_call0_v6 : Ref sig .tc := ⟨.hbm, 550, rfl⟩
abbrev main_call2_call0_c_0 : Ref sig .tc := ⟨.hbm, 551, rfl⟩
abbrev main_call2_call0_v7 : Ref sig .tc := ⟨.hbm, 552, rfl⟩
abbrev main_call2_call0_v8 : Ref sig .tc := ⟨.hbm, 553, rfl⟩
abbrev main_call2_call0_c_1 : Ref sig .tc := ⟨.hbm, 554, rfl⟩
abbrev main_call2_call0_v9 : Ref sig .tc := ⟨.hbm, 555, rfl⟩
abbrev main_call2_call0_v10 : Ref sig .tc := ⟨.hbm, 556, rfl⟩
abbrev main_call2_call0_v11 : Ref sig .tc := ⟨.hbm, 557, rfl⟩
abbrev main_call2_call0_v12 : Ref sig .tc := ⟨.hbm, 558, rfl⟩
abbrev main_call2_call0_v13 : Ref sig .tc := ⟨.hbm, 559, rfl⟩
abbrev main_call2_call0_c_2 : Ref sig .tc := ⟨.hbm, 560, rfl⟩
abbrev main_call2_call0_v14 : Ref sig .tc := ⟨.hbm, 561, rfl⟩
abbrev main_call2_call0_v15 : Ref sig .tc := ⟨.hbm, 562, rfl⟩
abbrev main_call2_call0_c_3 : Ref sig .tc := ⟨.hbm, 563, rfl⟩
abbrev main_call2_call0_v16 : Ref sig .tc := ⟨.hbm, 564, rfl⟩
abbrev main_call2_call0_v17 : Ref sig .tc := ⟨.hbm, 565, rfl⟩
abbrev main_call2_call0_v18 : Ref sig .tc := ⟨.hbm, 566, rfl⟩
abbrev main_call2_call0_v19 : Ref sig .tc := ⟨.hbm, 567, rfl⟩
abbrev main_call2_call0_v20 : Ref sig .tc := ⟨.hbm, 568, rfl⟩
abbrev main_call2_call0_c_4 : Ref sig .tc := ⟨.hbm, 569, rfl⟩
abbrev main_call2_call0_v21 : Ref sig .tc := ⟨.hbm, 570, rfl⟩
abbrev main_call2_call0_v22 : Ref sig .tc := ⟨.hbm, 571, rfl⟩
abbrev main_call2_call0_c_5 : Ref sig .tc := ⟨.hbm, 572, rfl⟩
abbrev main_call2_call0_v23 : Ref sig .tc := ⟨.hbm, 573, rfl⟩
abbrev main_call2_call0_v24 : Ref sig .tc := ⟨.hbm, 574, rfl⟩
abbrev main_call2_call0_v25 : Ref sig .tc := ⟨.hbm, 575, rfl⟩
abbrev main_call2_call0_v26 : Ref sig .tc := ⟨.hbm, 576, rfl⟩
abbrev main_call2_call0_v27 : Ref sig .tc := ⟨.hbm, 577, rfl⟩
abbrev main_call2_call0_c_6 : Ref sig .tc := ⟨.hbm, 578, rfl⟩
abbrev main_call2_call0_v28 : Ref sig .tc := ⟨.hbm, 579, rfl⟩
abbrev main_call2_call0_v29 : Ref sig .tc := ⟨.hbm, 580, rfl⟩
abbrev main_call2_call0_c_7 : Ref sig .tc := ⟨.hbm, 581, rfl⟩
abbrev main_call2_call0_v30 : Ref sig .tc := ⟨.hbm, 582, rfl⟩
abbrev main_call2_call0_v31 : Ref sig .tc := ⟨.hbm, 583, rfl⟩
abbrev main_call2_call0_v32 : Ref sig .tc := ⟨.hbm, 584, rfl⟩
abbrev main_call2_call0_v33 : Ref sig .tc := ⟨.hbm, 585, rfl⟩
abbrev main_call2_call0_v34 : Ref sig .tc := ⟨.hbm, 586, rfl⟩
abbrev main_call2_call0_v35 : Ref sig .tc := ⟨.hbm, 587, rfl⟩
abbrev main_call2_call0_v36 : Ref sig .tc := ⟨.hbm, 588, rfl⟩
abbrev main_call2_call0_v37 : Ref sig .tc := ⟨.hbm, 589, rfl⟩
abbrev main_call2_call0_c_8 : Ref sig .tc := ⟨.hbm, 590, rfl⟩
abbrev main_call2_call0_v38 : Ref sig .tc := ⟨.hbm, 591, rfl⟩
abbrev main_call2_call0_v39 : Ref sig .tc := ⟨.hbm, 592, rfl⟩
abbrev main_call2_call0_v40 : Ref sig .tc := ⟨.hbm, 593, rfl⟩
abbrev main_call2_call0_c_9 : Ref sig .tc := ⟨.hbm, 594, rfl⟩
abbrev main_call2_call0_v41 : Ref sig .tc := ⟨.hbm, 595, rfl⟩
abbrev main_call2_call0_v42 : Ref sig .tc := ⟨.hbm, 596, rfl⟩
abbrev main_call2_call0_c_10 : Ref sig .tc := ⟨.hbm, 597, rfl⟩
abbrev main_call2_call0_v43 : Ref sig .tc := ⟨.hbm, 598, rfl⟩
abbrev main_call2_call0_v44 : Ref sig .tc := ⟨.hbm, 599, rfl⟩
abbrev main_call2_call0_v45 : Ref sig .tc := ⟨.hbm, 600, rfl⟩
abbrev main_call2_call0_v46 : Ref sig .tc := ⟨.hbm, 601, rfl⟩
abbrev main_call2_call0_v47 : Ref sig .tc := ⟨.hbm, 602, rfl⟩
abbrev main_call2_call0_c_11 : Ref sig .tc := ⟨.hbm, 603, rfl⟩
abbrev main_call2_call0_v48 : Ref sig .tc := ⟨.hbm, 604, rfl⟩
abbrev main_call2_call0_v49 : Ref sig .tc := ⟨.hbm, 605, rfl⟩
abbrev main_call2_call0_c_12 : Ref sig .tc := ⟨.hbm, 606, rfl⟩
abbrev main_call2_call0_v50 : Ref sig .tc := ⟨.hbm, 607, rfl⟩
abbrev main_call2_call0_v51 : Ref sig .tc := ⟨.hbm, 608, rfl⟩
abbrev main_call2_call0_v52 : Ref sig .tc := ⟨.hbm, 609, rfl⟩
abbrev main_call2_call0_v53 : Ref sig .tc := ⟨.hbm, 610, rfl⟩
abbrev main_call2_call0_v54 : Ref sig .tc := ⟨.hbm, 611, rfl⟩
abbrev main_call2_call0_c_13 : Ref sig .tc := ⟨.hbm, 612, rfl⟩
abbrev main_call2_call0_v55 : Ref sig .tc := ⟨.hbm, 613, rfl⟩
abbrev main_call2_call0_v56 : Ref sig .tc := ⟨.hbm, 614, rfl⟩
abbrev main_call2_call0_c_14 : Ref sig .tc := ⟨.hbm, 615, rfl⟩
abbrev main_call2_call0_v57 : Ref sig .tc := ⟨.hbm, 616, rfl⟩
abbrev main_call2_call0_v58 : Ref sig .tc := ⟨.hbm, 617, rfl⟩
abbrev main_call2_call0_v59 : Ref sig .tc := ⟨.hbm, 618, rfl⟩
abbrev main_call2_call0_v60 : Ref sig .tc := ⟨.hbm, 619, rfl⟩
abbrev main_call2_call0_v61 : Ref sig .tc := ⟨.hbm, 620, rfl⟩
abbrev main_call2_call0_c_15 : Ref sig .tc := ⟨.hbm, 621, rfl⟩
abbrev main_call2_call0_v62 : Ref sig .tc := ⟨.hbm, 622, rfl⟩
abbrev main_call2_call0_v63 : Ref sig .tc := ⟨.hbm, 623, rfl⟩
abbrev main_call2_call0_c_16 : Ref sig .tc := ⟨.hbm, 624, rfl⟩
abbrev main_call2_call0_v64 : Ref sig .tc := ⟨.hbm, 625, rfl⟩
abbrev main_call2_call0_v65 : Ref sig .tc := ⟨.hbm, 626, rfl⟩
abbrev main_call2_call0_v66 : Ref sig .tc := ⟨.hbm, 627, rfl⟩
abbrev main_call2_call0_v67 : Ref sig .tc := ⟨.hbm, 628, rfl⟩
abbrev main_call2_call0_v68 : Ref sig .tc := ⟨.hbm, 629, rfl⟩
abbrev main_call2_call0_v69 : Ref sig .tc := ⟨.hbm, 630, rfl⟩
abbrev main_call2_call0_v70 : Ref sig .tc := ⟨.hbm, 631, rfl⟩
abbrev main_call2_call0_v71 : Ref sig .tc := ⟨.hbm, 632, rfl⟩
abbrev main_call2_call0_c_17 : Ref sig .tc := ⟨.hbm, 633, rfl⟩
abbrev main_call2_call0_v72 : Ref sig .tc := ⟨.hbm, 634, rfl⟩
abbrev main_call2_call0_v73 : Ref sig .tc := ⟨.hbm, 635, rfl⟩
abbrev main_call2_call0_v74 : Ref sig .tc := ⟨.hbm, 636, rfl⟩
abbrev main_call2_call0_c_18 : Ref sig .tc := ⟨.hbm, 637, rfl⟩
abbrev main_call2_call0_v75 : Ref sig .tc := ⟨.hbm, 638, rfl⟩
abbrev main_call2_call0_v76 : Ref sig .tc := ⟨.hbm, 639, rfl⟩
abbrev main_call2_call0_c_19 : Ref sig .tc := ⟨.hbm, 640, rfl⟩
abbrev main_call2_call0_v77 : Ref sig .tc := ⟨.hbm, 641, rfl⟩
abbrev main_call2_call0_v78 : Ref sig .tc := ⟨.hbm, 642, rfl⟩
abbrev main_call2_call0_v79 : Ref sig .tc := ⟨.hbm, 643, rfl⟩
abbrev main_call2_call0_v80 : Ref sig .tc := ⟨.hbm, 644, rfl⟩
abbrev main_call2_call0_v81 : Ref sig .tc := ⟨.hbm, 645, rfl⟩
abbrev main_call2_call0_c_20 : Ref sig .tc := ⟨.hbm, 646, rfl⟩
abbrev main_call2_call0_v82 : Ref sig .tc := ⟨.hbm, 647, rfl⟩
abbrev main_call2_call0_v83 : Ref sig .tc := ⟨.hbm, 648, rfl⟩
abbrev main_call2_call0_c_21 : Ref sig .tc := ⟨.hbm, 649, rfl⟩
abbrev main_call2_call0_v84 : Ref sig .tc := ⟨.hbm, 650, rfl⟩
abbrev main_call2_call0_v85 : Ref sig .tc := ⟨.hbm, 651, rfl⟩
abbrev main_call2_call0_v86 : Ref sig .tc := ⟨.hbm, 652, rfl⟩
abbrev main_call2_call0_v87 : Ref sig .tc := ⟨.hbm, 653, rfl⟩
abbrev main_call2_call0_v88 : Ref sig .tc := ⟨.hbm, 654, rfl⟩
abbrev main_call2_call0_c_22 : Ref sig .tc := ⟨.hbm, 655, rfl⟩
abbrev main_call2_call0_v89 : Ref sig .tc := ⟨.hbm, 656, rfl⟩
abbrev main_call2_call0_v90 : Ref sig .tc := ⟨.hbm, 657, rfl⟩
abbrev main_call2_call0_c_23 : Ref sig .tc := ⟨.hbm, 658, rfl⟩
abbrev main_call2_call0_v91 : Ref sig .tc := ⟨.hbm, 659, rfl⟩
abbrev main_call2_call0_v92 : Ref sig .tc := ⟨.hbm, 660, rfl⟩
abbrev main_call2_call0_v93 : Ref sig .tc := ⟨.hbm, 661, rfl⟩
abbrev main_call2_call0_v94 : Ref sig .tc := ⟨.hbm, 662, rfl⟩
abbrev main_call2_call0_v95 : Ref sig .tc := ⟨.hbm, 663, rfl⟩
abbrev main_call2_call0_c_24 : Ref sig .tc := ⟨.hbm, 664, rfl⟩
abbrev main_call2_call0_v96 : Ref sig .tc := ⟨.hbm, 665, rfl⟩
abbrev main_call2_call0_v97 : Ref sig .tc := ⟨.hbm, 666, rfl⟩
abbrev main_call2_call0_c_25 : Ref sig .tc := ⟨.hbm, 667, rfl⟩
abbrev main_call2_call0_v98 : Ref sig .tc := ⟨.hbm, 668, rfl⟩
abbrev main_call2_call0_v99 : Ref sig .tc := ⟨.hbm, 669, rfl⟩
abbrev main_call2_call0_v100 : Ref sig .tc := ⟨.hbm, 670, rfl⟩
abbrev main_call2_call0_v101 : Ref sig .tc := ⟨.hbm, 671, rfl⟩
abbrev main_call2_call0_v102 : Ref sig .tc := ⟨.hbm, 672, rfl⟩
abbrev main_call2_call0_v103 : Ref sig .tc := ⟨.hbm, 673, rfl⟩
abbrev main_call2_call0_v104 : Ref sig .tc := ⟨.hbm, 674, rfl⟩
abbrev main_call2_call0_v105 : Ref sig .tc := ⟨.hbm, 675, rfl⟩
abbrev main_call2_call0_c_26 : Ref sig .tc := ⟨.hbm, 676, rfl⟩
abbrev main_call2_call0_v106 : Ref sig .tc := ⟨.hbm, 677, rfl⟩
abbrev main_call2_call0_v107 : Ref sig .tc := ⟨.hbm, 678, rfl⟩
abbrev main_call2_call0_v108 : Ref sig .tc := ⟨.hbm, 679, rfl⟩
abbrev main_call2_call0_c_27 : Ref sig .tc := ⟨.hbm, 680, rfl⟩
abbrev main_call2_call0_v109 : Ref sig .tc := ⟨.hbm, 681, rfl⟩
abbrev main_call2_call0_v110 : Ref sig .tc := ⟨.hbm, 682, rfl⟩
abbrev main_call2_call0_c_28 : Ref sig .tc := ⟨.hbm, 683, rfl⟩
abbrev main_call2_call0_v111 : Ref sig .tc := ⟨.hbm, 684, rfl⟩
abbrev main_call2_call0_v112 : Ref sig .tc := ⟨.hbm, 685, rfl⟩
abbrev main_call2_call0_v113 : Ref sig .tc := ⟨.hbm, 686, rfl⟩
abbrev main_call2_call0_v114 : Ref sig .tc := ⟨.hbm, 687, rfl⟩
abbrev main_call2_call0_v115 : Ref sig .tc := ⟨.hbm, 688, rfl⟩
abbrev main_call2_call0_c_29 : Ref sig .tc := ⟨.hbm, 689, rfl⟩
abbrev main_call2_call0_v116 : Ref sig .tc := ⟨.hbm, 690, rfl⟩
abbrev main_call2_call0_v117 : Ref sig .tc := ⟨.hbm, 691, rfl⟩
abbrev main_call2_call0_c_30 : Ref sig .tc := ⟨.hbm, 692, rfl⟩
abbrev main_call2_call0_v118 : Ref sig .tc := ⟨.hbm, 693, rfl⟩
abbrev main_call2_call0_v119 : Ref sig .tc := ⟨.hbm, 694, rfl⟩
abbrev main_call2_call0_v120 : Ref sig .tc := ⟨.hbm, 695, rfl⟩
abbrev main_call2_call0_v121 : Ref sig .tc := ⟨.hbm, 696, rfl⟩
abbrev main_call2_call0_v122 : Ref sig .tc := ⟨.hbm, 697, rfl⟩
abbrev main_call2_call0_c_31 : Ref sig .tc := ⟨.hbm, 698, rfl⟩
abbrev main_call2_call0_v123 : Ref sig .tc := ⟨.hbm, 699, rfl⟩
abbrev main_call2_call0_v124 : Ref sig .tc := ⟨.hbm, 700, rfl⟩
abbrev main_call2_call0_c_32 : Ref sig .tc := ⟨.hbm, 701, rfl⟩
abbrev main_call2_call0_v125 : Ref sig .tc := ⟨.hbm, 702, rfl⟩
abbrev main_call2_call0_v126 : Ref sig .tc := ⟨.hbm, 703, rfl⟩
abbrev main_call2_call0_v127 : Ref sig .tc := ⟨.hbm, 704, rfl⟩
abbrev main_call2_call0_v128 : Ref sig .tc := ⟨.hbm, 705, rfl⟩
abbrev main_call2_call0_v129 : Ref sig .tc := ⟨.hbm, 706, rfl⟩
abbrev main_call2_call0_c_33 : Ref sig .tc := ⟨.hbm, 707, rfl⟩
abbrev main_call2_call0_v130 : Ref sig .tc := ⟨.hbm, 708, rfl⟩
abbrev main_call2_call0_v131 : Ref sig .tc := ⟨.hbm, 709, rfl⟩
abbrev main_call2_call0_c_34 : Ref sig .tc := ⟨.hbm, 710, rfl⟩
abbrev main_call2_call0_v132 : Ref sig .tc := ⟨.hbm, 711, rfl⟩
abbrev main_call2_call0_v133 : Ref sig .tc := ⟨.hbm, 712, rfl⟩
abbrev main_call2_call0_v134 : Ref sig .tc := ⟨.hbm, 713, rfl⟩
abbrev main_call2_call0_v135 : Ref sig .tc := ⟨.hbm, 714, rfl⟩
abbrev main_call2_call0_v136 : Ref sig .tc := ⟨.hbm, 715, rfl⟩
abbrev main_call2_call0_v137 : Ref sig .tc := ⟨.hbm, 716, rfl⟩
abbrev main_call2_call0_v138 : Ref sig .tc := ⟨.hbm, 717, rfl⟩
abbrev main_call2_call0_v139 : Ref sig .tc := ⟨.hbm, 718, rfl⟩
abbrev main_call2_call0_c_35 : Ref sig .tc := ⟨.hbm, 719, rfl⟩
abbrev main_call2_call0_v140 : Ref sig .tc := ⟨.hbm, 720, rfl⟩
abbrev main_call2_call0_v141 : Ref sig .tc := ⟨.hbm, 721, rfl⟩
abbrev main_call2_call0_v142 : Ref sig .tc := ⟨.hbm, 722, rfl⟩
abbrev main_call2_call0_c_36 : Ref sig .tc := ⟨.hbm, 723, rfl⟩
abbrev main_call2_call0_v143 : Ref sig .tc := ⟨.hbm, 724, rfl⟩
abbrev main_call2_call0_v144 : Ref sig .tc := ⟨.hbm, 725, rfl⟩
abbrev main_call2_call0_c_37 : Ref sig .tc := ⟨.hbm, 726, rfl⟩
abbrev main_call2_call0_v145 : Ref sig .tc := ⟨.hbm, 727, rfl⟩
abbrev main_call2_call0_v146 : Ref sig .tc := ⟨.hbm, 728, rfl⟩
abbrev main_call2_call0_v147 : Ref sig .tc := ⟨.hbm, 729, rfl⟩
abbrev main_call2_call0_v148 : Ref sig .tc := ⟨.hbm, 730, rfl⟩
abbrev main_call2_call0_v149 : Ref sig .tc := ⟨.hbm, 731, rfl⟩
abbrev main_call2_call0_c_38 : Ref sig .tc := ⟨.hbm, 732, rfl⟩
abbrev main_call2_call0_v150 : Ref sig .tc := ⟨.hbm, 733, rfl⟩
abbrev main_call2_call0_v151 : Ref sig .tc := ⟨.hbm, 734, rfl⟩
abbrev main_call2_call0_c_39 : Ref sig .tc := ⟨.hbm, 735, rfl⟩
abbrev main_call2_call0_v152 : Ref sig .tc := ⟨.hbm, 736, rfl⟩
abbrev main_call2_call0_v153 : Ref sig .tc := ⟨.hbm, 737, rfl⟩
abbrev main_call2_call0_v154 : Ref sig .tc := ⟨.hbm, 738, rfl⟩
abbrev main_call2_call0_v155 : Ref sig .tc := ⟨.hbm, 739, rfl⟩
abbrev main_call2_call0_v156 : Ref sig .tc := ⟨.hbm, 740, rfl⟩
abbrev main_call2_call0_c_40 : Ref sig .tc := ⟨.hbm, 741, rfl⟩
abbrev main_call2_call0_v157 : Ref sig .tc := ⟨.hbm, 742, rfl⟩
abbrev main_call2_call0_v158 : Ref sig .tc := ⟨.hbm, 743, rfl⟩
abbrev main_call2_call0_c_41 : Ref sig .tc := ⟨.hbm, 744, rfl⟩
abbrev main_call2_call0_v159 : Ref sig .tc := ⟨.hbm, 745, rfl⟩
abbrev main_call2_call0_v160 : Ref sig .tc := ⟨.hbm, 746, rfl⟩
abbrev main_call2_call0_v161 : Ref sig .tc := ⟨.hbm, 747, rfl⟩
abbrev main_call2_call0_v162 : Ref sig .tc := ⟨.hbm, 748, rfl⟩
abbrev main_call2_call0_v163 : Ref sig .tc := ⟨.hbm, 749, rfl⟩
abbrev main_call2_call0_c_42 : Ref sig .tc := ⟨.hbm, 750, rfl⟩
abbrev main_call2_call0_v164 : Ref sig .tc := ⟨.hbm, 751, rfl⟩
abbrev main_call2_call0_v165 : Ref sig .tc := ⟨.hbm, 752, rfl⟩
abbrev main_call2_call0_c_43 : Ref sig .tc := ⟨.hbm, 753, rfl⟩
abbrev main_call2_call0_v166 : Ref sig .tc := ⟨.hbm, 754, rfl⟩
abbrev main_call2_call0_v167 : Ref sig .tc := ⟨.hbm, 755, rfl⟩
abbrev main_call2_call0_v168 : Ref sig .tc := ⟨.hbm, 756, rfl⟩
abbrev main_call2_call0_v169 : Ref sig .tc := ⟨.hbm, 757, rfl⟩
abbrev main_call2_call0_v170 : Ref sig .tc := ⟨.hbm, 758, rfl⟩
abbrev main_call2_v19_0 : Ref sig .tc := ⟨.hbm, 759, rfl⟩
abbrev main_call2_call0_v172 : Ref sig .tc := ⟨.hbm, 760, rfl⟩
abbrev main_call2_call0_v173 : Ref sig .tc := ⟨.hbm, 761, rfl⟩
abbrev main_call2_call0_c_44 : Ref sig .tc := ⟨.hbm, 762, rfl⟩
abbrev main_call2_call0_v174 : Ref sig .tc := ⟨.hbm, 763, rfl⟩
abbrev main_call2_v19_1 : Ref sig .tc := ⟨.hbm, 764, rfl⟩
abbrev main_call2_v20 : Ref sig .tc := ⟨.hbm, 765, rfl⟩
abbrev main_call2_c_2 : Ref sig .tc := ⟨.hbm, 766, rfl⟩
abbrev main_call2_v21 : Ref sig .tc := ⟨.hbm, 767, rfl⟩
abbrev main_call2_v22 : Ref sig .tc := ⟨.hbm, 768, rfl⟩
abbrev main_call2_c_3 : Ref sig .tc := ⟨.hbm, 769, rfl⟩
abbrev main_call2_v23 : Ref sig .tc := ⟨.hbm, 770, rfl⟩
abbrev main_call2_v24 : Ref sig .tc := ⟨.hbm, 771, rfl⟩
abbrev main_call2_v25 : Ref sig .tc := ⟨.hbm, 772, rfl⟩
abbrev main_call2_cst : Ref sig .tc := ⟨.hbm, 773, rfl⟩
abbrev main_call2_v26 : Ref sig .tc := ⟨.hbm, 774, rfl⟩
abbrev main_call2_v27 : Ref sig .tc := ⟨.hbm, 775, rfl⟩
abbrev main_call2_v28 : Ref sig .tc := ⟨.hbm, 776, rfl⟩
abbrev main_call2_v29 : Ref sig .tc := ⟨.hbm, 777, rfl⟩
abbrev main_call2_v30 : Ref sig .tc := ⟨.hbm, 778, rfl⟩
abbrev main_call2_v31 : Ref sig .tc := ⟨.hbm, 779, rfl⟩
abbrev main_call2_v32 : Ref sig .tc := ⟨.hbm, 780, rfl⟩
abbrev main_call2_v33 : Ref sig .tc := ⟨.hbm, 781, rfl⟩
abbrev main_v13 : Ref sig .tc := ⟨.hbm, 782, rfl⟩
abbrev main_c_6 : Ref sig .tc := ⟨.hbm, 783, rfl⟩
abbrev main_call3_v0 : Ref sig .tc := ⟨.hbm, 784, rfl⟩
abbrev main_v14 : Ref sig .tc := ⟨.hbm, 785, rfl⟩
abbrev main_c_7 : Ref sig .tc := ⟨.hbm, 786, rfl⟩
abbrev main_call4_v0 : Ref sig .tc := ⟨.hbm, 787, rfl⟩
abbrev main_v15 : Ref sig .tc := ⟨.hbm, 788, rfl⟩
abbrev main_v16 : Ref sig .tc := ⟨.hbm, 789, rfl⟩
abbrev main_v17 : Ref sig .tc := ⟨.hbm, 790, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1 : S_.BroadcastsInDim S1 (![] : Fin 0 → Fin S1.rank)
  concatenates_S1_S1_S2_d0 : Shape.Concatenates [S1, S1] S2 0
  slices_S2_S1_0 : S2.Slices ![0] S1
  shapeCasts_S1_S_ : S1.ShapeCasts S_
  slices_S2_S1_1 : S2.Slices ![1] S1
  bcast_S_S2 : S_.BroadcastsInDim S2 (![] : Fin 0 → Fin S2.rank)
  natLt_32_64 : 32 < 64
  bcast_S2_S2x1_0 : S2.BroadcastsInDim S2x1 (![0] : Fin 1 → Fin S2x1.rank)
  concatenates_S2x1_S2x1_S2x2_d1 : Shape.Concatenates [S2x1, S2x1] S2x2 1
  slices_S2x2_S1x2_0_0 : S2x2.Slices ![0, 0] S1x2
  shapeCasts_S1x2_S2 : S1x2.ShapeCasts S2
  slices_S2x2_S1x2_1_0 : S2x2.Slices ![1, 0] S1x2
  bcast_S_S1x1 : S_.BroadcastsInDim S1x1 (![] : Fin 0 → Fin S1x1.rank)
  bcast_S_S768x20 : S_.BroadcastsInDim S768x20 (![] : Fin 0 → Fin S768x20.rank)
  bcast_S1x1_S768x20_0_1 : S1x1.BroadcastsInDim S768x20 (![0, 1] : Fin 2 → Fin S768x20.rank)
  bcast_S_S1x20 : S_.BroadcastsInDim S1x20 (![] : Fin 0 → Fin S1x20.rank)
  bcast_S1x1_S1x20_0_1 : S1x1.BroadcastsInDim S1x20 (![0, 1] : Fin 2 → Fin S1x20.rank)
  pads_S768x20_S768x128_000_01080 : S768x20.Pads (![0, 0] : Fin 2 → Nat) ![0, 108] ![0, 0] S768x128
  h_S_ : 0 < S_.numel
  pads_S1x20_S1x128_000_01080 : S1x20.Pads (![0, 0] : Fin 2 → Nat) ![0, 108] ![0, 0] S1x128
  inb_S1024x768_S1024x768_0_0 : ∀ a, (![0, 0] : Fin 2 → Nat) a + S1024x768.size a ≤ S1024x768.size a
  h_S1024x768 : 0 < S1024x768.numel
  inb_S768x128_S768x128_0_0 : ∀ a, (![0, 0] : Fin 2 → Nat) a + S768x128.size a ≤ S768x128.size a
  h_S768x128 : 0 < S768x128.numel
  inb_S1x128_S1x128_0_0 : ∀ a, (![0, 0] : Fin 2 → Nat) a + S1x128.size a ≤ S1x128.size a
  h_S1x128 : 0 < S1x128.numel
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  slices_S16384x128_S16384x20_0_0 : S16384x128.Slices ![0, 0] S16384x20
  dot_S1024x768_S768x128_S1024x128_1_0_0_1_n_n_wf : DotDims.WF S1024x768 S768x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)

variable [Facts₀]

def dot_S1024x768_S768x128_S1024x128_1_0_0_1_n_n : DotDims S1024x768 S768x128 S1024x128 where
  lhsContracting := [1]
  rhsContracting := [0]
  lhsNonContracting := [0]
  rhsNonContracting := [1]
  lhsBatch := []
  rhsBatch := []
  wf := dot_S1024x768_S768x128_S1024x128_1_0_0_1_n_n_wf

abbrev spec0_0 : Pipeline.WinSpec sig grid0.rank :=
  Pipeline.WinSpec.ofSpec (Memref.whole main_arg0) S1024x768.size reads0_0 false false 2 stage0_0 sem0_0 nbuf0_0 hstage0_0

abbrev spec0_1 : Pipeline.WinSpec sig grid0.rank :=
  Pipeline.WinSpec.ofSpec (Memref.whole main_arg1) S768x128.size reads0_1 false true 1 stage0_1 sem0_1 nbuf0_1 hstage0_1

abbrev spec0_2 : Pipeline.WinSpec sig grid0.rank :=
  Pipeline.WinSpec.ofSpec (Memref.whole main_arg2) S1x128.size reads0_2 false true 1 stage0_2 sem0_2 nbuf0_2 hstage0_2

abbrev spec0_3 : Pipeline.WinSpec sig grid0.rank :=
  Pipeline.WinSpec.ofSpec (Memref.whole main_v16) S1024x128.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== Proof.LibFrameShared.lean ====
/-
  The frame run of a one-region pipeline kernel whose INPUT windows may share an array.

  When one array of @main is handed to a kernel through several input windows, the windows' arrays are no longer
  pairwise distinct buffers, so the full share of the shared buffer has to be dealt among the windows that read it.
  The launch theorem for that layout asks the certificate how the distinct buffers behind the arrays, each whole at
  the full share, make up the proof data's arrays at entry (`hsplit`). This file states the frame run on top of it, in
  the same form as the frame run for distinct arrays: the region invariant is the core's scoped rest (the kernel's
  scratch, at some contents), every unscoped buffer that is no window's array bypasses the region and is read back at
  the end unchanged, and every window's array ends at the contents the proof data compute (`FramePost`).
  It also lists the distinct buffers behind the arrays as a chain of points-tos (`arrBufs_eq_of_list`).
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}

section Listed

variable {Ix : Type} [DecidableEq Ix] {Name : Type} [DecidableEq Name] {U : Type} [URA U] {Lvl : Type}

/-- The distinct buffers behind the windows' arrays, listed: `arrBufs` is the chain of their points-tos, each whole
    at the full share at contents `V`. -/
theorem arrBufs_eq_of_list {gr : Nat} {W : Nat} (win : Fin W → WinSpec sig gr) (c : Dev nD)
    (V : (b : Ref sig .tc) → Buf Val ((c.tc : Thread nD τ).loc b)) (l : List (Ref sig .tc))
    (h : Finset.univ.image (arrRef win) = l.toFinset) (hl : l.Nodup) :
    (arrBufs (Ix := Ix) (Name := Name) (U := U) (Lvl := Lvl) win c V : sProp (MT nD τ sig Ix Val Name U Lvl))
      = BI.bigSepL l fun b => ((c.tc : Thread nD τ).loc b) ↦{fullShare} V b := by
  unfold arrBufs; exact BI.bigSep_eq_bigSepL_of_eq l h hl _

end Listed

section Frame

variable {Λ₀ : SL.Sem.Labels} {P : Type} [Fintype P] [DecidableEq P] [∀ e, Nonempty (Val e)]

local notation "𝕄" => MT nD τ sig Unit Val ℕ (UR sig nD τ) ℕ

/-- THE FRAME RUN of a one-region kernel with no semaphore of its own whose input windows may share arrays: from any
    memory with zero counters every weakly fair execution of @main on the TensorCores terminates, and in every final
    state each window's array holds what the proof data compute (`Dat.arrAt … N`) and every other unscoped buffer what
    it held at the region's entry (`V`). The certificate supplies the layout facts one by one, the proof data with
    the scoped rest as the invariant at the first and after the last point (`hin`, `hout`), the body obligation,
    @main up to the region (`hmain`), and how the buffers behind the arrays are dealt among the windows (`hsplit`). -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H; isplitr
      · iempintro
      · iexact H)
    (hin := fun c => (show _ ⊢ (scopedRest (cfgs p).spec c : sProp 𝕄) from by iintro ⟨-, H⟩; iexact H).trans (hin c))
    (hout := fun c => (hout c).trans (by
      iintro H; isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Frame

end Idealize.ShloMosaic.Pipeline

end
-- ==== Proof.KernelFrame.lean ====
/-
  The frame run of the linear head `max(x·W + b, 0)` restricted to its first 20 classes, computed block by block:
  one grid point takes 2048 rows of the activation array, read through TWO windows on that one array (the left and
  the right 384 columns), the weight array likewise through two windows (its upper and lower 384 rows), the bias
  row, and writes the 2048×20 block of the result.

  Because two windows read one buffer, each of those buffers is held by its two windows at the two halves of the
  full share; nothing writes an input, so half a share is all a window needs. The body reads its five input blocks,
  stores one block that covers the output buffer, and touches nothing else; the region invariant is the core's
  scoped rest. From this the launch theorem for shared input arrays gives the run: every weakly fair execution
  terminates, each argument array ends as it began, and the result array holds, block by block, what the body
  stored at the point that covers the block.
-/
import proofs.«104789_g2000005905678617_pallasbulk_1091_27_alg».proof.Proof.Gen.Kernel.Launch
import proofs.«104789_g2000005905678617_pallasbulk_1091_27_alg».proof.Proof.Gen.Kernel.Skeleton
import proofs.«104789_g2000005905678617_pallasbulk_1091_27_alg».proof.Proof.Gen.Kernel.Points
import proofs.«104789_g2000005905678617_pallasbulk_1091_27_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program is its one region -/

/-- The buffers as the region finds them: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rX : Rect S2048x384 := Rect.unit (s := S2048x384) ![0, 0] S2048x384.size inb_S2048x384_S2048x384_0_0
abbrev rW : Rect S384x128 := Rect.unit (s := S384x128) ![0, 0] S384x128.size inb_S384x128_S384x128_0_0
abbrev rB : Rect S1x128 := Rect.unit (s := S1x128) ![0, 0] S1x128.size inb_S1x128_S1x128_0_0
abbrev rO : Rect S2048x20 := Rect.unit (s := S2048x20) ![0, 0] S2048x20.size inb_S2048x20_S2048x20_0_0

/-- The output buffer after the body, from the five input blocks: its one store, which covers the buffer. -/
def out5 (xl xr : Vec F S2048x384 .f32) (wu wd : Vec F S384x128 .f32) (b : Vec F S1x128 .f32) : Vec F S2048x20 .f32 :=
  View.canon [⟨rO, k0_pay1 (View.ld xl rX) (View.ld wu rW) (View.ld xr rX) (View.ld wd rW) (View.ld b rB)⟩]

theorem cover5 (p0 : Vec F S2048x20 .f32) (y : S2048x20.Idx) :
    ∃ pc ∈ ([⟨rO, p0⟩] : List (View.Piece (Elt F) S2048x20 .f32)), y ∈ pc.1.set :=
  View.cover_of_tiled [⟨rO, p0⟩] S2048x20.size (by rfl) y

/-! ## The body's triple -/

set_option maxHeartbeats 1000000 in
/-- On whole staging buffers, the five inputs' at read contents and the output's at anything, the body runs to a
    state holding the inputs' as they were and the output's at `out5` of them. -/
theorem sound_kernel (c : Dev nD) (E : Set ℕ) (i : grid0.Coords)
    (arg1 : Memref sig .tc .vmem S2048x384 .f32) (harg1 : arg1.IsWhole) (arg2 : Memref sig .tc .vmem S2048x384 .f32) (harg2 : arg2.IsWhole)
    (arg3 : Memref sig .tc .vmem S384x128 .f32) (harg3 : arg3.IsWhole) (arg4 : Memref sig .tc .vmem S384x128 .f32) (harg4 : arg4.IsWhole)
    (arg5 : Memref sig .tc .vmem S1x128 .f32) (harg5 : arg5.IsWhole) (arg6 : Memref sig .tc .vmem S2048x20 .f32) (harg6 : arg6.IsWhole)
    (xl xr : Vec F S2048x384 .f32) (wu wd : Vec F S384x128 .f32) (b : Vec F S1x128 .f32) (K : PUnit → sProp 𝕄) :
    iprop(owns (c : Thread nD τ) arg1 fullShare xl ∗ owns (c : Thread nD τ) arg2 fullShare xr ∗ owns (c : Thread nD τ) arg3 fullShare wu
        ∗ owns (c : Thread nD τ) arg4 fullShare wd ∗ owns (c : Thread nD τ) arg5 fullShare b ∗ (∃ d, owns (c : Thread nD τ) arg6 fullShare d)
        ∗ (iprop(owns (c : Thread nD τ) arg1 fullShare xl ∗ owns (c : Thread nD τ) arg2 fullShare xr ∗ owns (c : Thread nD τ) arg3 fullShare wu
            ∗ owns (c : Thread nD τ) arg4 fullShare wd ∗ owns (c : Thread nD τ) arg5 fullShare b
            ∗ owns (c : Thread nD τ) arg6 fullShare (out5 xl xr wu wd b)) -∗ K ⟨⟩))
      ⊢ wp frame (wpE (defs₀ (F := F)) Variants.none c none) E (cc0__head_body i arg1 harg1 arg2 harg2 arg3 harg3 arg4 harg4 arg5 harg5 arg6 harg6) K := by
  simp only [cc0__head_body_eq_skeleton]; unfold cc0__head_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The proof data -/

/-- The arrays as launched; after the body at point `t` each input's buffer at its block and the output's at
    `out5` of the input blocks; the invariant the core's scoped rest; the two windows on one buffer hold it at the
    two halves of the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

end Cert.Kernel.Shared

end
-- ==== Proof.KernelRun.lean ====
/-
  The run of the block-by-block linear head, from the body's triple.

  Six windows stand on four buffers: the activation array behind the two column-half windows, the weight array behind
  the two row-half windows, the bias row and the result array. At the region's entry each of the four buffers is whole at
  the full share; the activation buffer and the weight buffer are each split into the two halves of the full share, one
  half per window, which is how the windows' arrays are held through the region. The launch theorem for input windows
  sharing an array then gives the run, and the three argument arrays, being input windows' arrays, end as launched.
-/
import proofs.«104789_g2000005905678617_pallasbulk_1091_27_alg».proof.Proof.KernelFrame

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the arrays, dealt among the windows -/

/-- The distinct buffers behind the six windows' arrays are the three argument arrays and the result array. -/
theorem arrBufs_eq (c : Dev nD) :
    (Pipeline.arrBufs spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_arg2) ↦{fullShare} V m c main_arg2) ∗ (((c.tc : Thread nD τ).loc main_v0) ↦{fullShare} V m c main_v0)) :=
  Pipeline.arrBufs_eq_of_list (Ix := Unit) (Name := ℕ) (U := UR sig nD τ) (Lvl := ℕ) spec0 c (V m c) [main_arg0, main_arg1, main_arg2, main_v0] (by decide) (by decide)

/-- The share each window holds its array at: the left and right halves for the two windows on one buffer, the
    full share for the bias row and for the result. -/
theorem share_0 (c : Dev nD) : (dats m 0 c).share 0 = fullShare.left := by unfold Dat.share; rfl
theorem share_1 (c : Dev nD) : (dats m 0 c).share 1 = fullShare.right := by unfold Dat.share; rfl
theorem share_2 (c : Dev nD) : (dats m 0 c).share 2 = fullShare.left := by unfold Dat.share; rfl
theorem share_3 (c : Dev nD) : (dats m 0 c).share 3 = fullShare.right := by unfold Dat.share; rfl
theorem share_4 (c : Dev nD) : (dats m 0 c).share 4 = fullShare := by unfold Dat.share; rfl
theorem share_5 (c : Dev nD) : (dats m 0 c).share 5 = fullShare := by unfold Dat.share; rfl

/-- Before any write-back a window's array holds what the region found in its buffer. -/
theorem arrAt_zero (c : Dev nD) (w : Fin cfg0.W) : (dats m 0 c).arrAt w 0 = V m c (Pipeline.arrRef spec0 w) := by
  show (dats m 0 c).A w = _
  exact A_eq m c w

/-- The four distinct buffers behind the six windows' arrays, each whole at the full share, make the windows' arrays
    at entry: the activation buffer and the weight buffer each split into the two halves of the full share. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  simp only [View.set_whole, share_0, share_1, share_2, share_3, share_4, share_5, arrAt_zero]
  iintro ⟨Hx, Hw, Hb, Ho⟩
  ihave Hx' := (pointsTo_share (PosShare.mem_left_op_right fullShare)).1 $$ Hx
  ihave Hw' := (pointsTo_share (PosShare.mem_left_op_right fullShare)).1 $$ Hw
  icases Hx' with ⟨Hxl, Hxr⟩
  icases Hw' with ⟨Hwl, Hwr⟩
  isplitl [Hxl]; · iexact Hxl
  isplitl [Hxr]; · iexact Hxr
  isplitl [Hwl]; · iexact Hwl
  isplitl [Hwr]; · iexact Hwr
  isplitl [Hb]; · iexact Hb
  iexact Ho

/-! ## The run and the frame -/

set_option backward.isDefEq.respectTransparency.types false in
/-- Every weakly fair execution of the program terminates, and in every final state each window's array holds what
    the proof data compute and every other unscoped buffer what it held at launch. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := fun _ => .rfl) (hout := fun _ => .rfl)

/-- The three argument arrays end as launched: each is an input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans (A_eq m c 0)),
      ((h c).1 2).trans (((dats m 0 c).arrAt_in 2 rfl _).trans (A_eq m c 2)),
      ((h c).1 4).trans (((dats m 0 c).arrAt_in 4 rfl _).trans (A_eq m c 4))⟩) (run_main m ρ)

end Cert.Kernel.Shared

end
-- ==== Proof.KernelIdealFrame.lean ====
/-
  The frame run of the linear head `max(x·W + b, 0)` restricted to its first 20 classes, computed block by block:
  one grid point takes 2048 rows of the activation array, read through TWO windows on that one array (the left and
  the right 384 columns), the weight array likewise through two windows (its upper and lower 384 rows), the bias
  row, and writes the 2048×20 block of the result.

  Because two windows read one buffer, each of those buffers is held by its two windows at the two halves of the
  full share; nothing writes an input, so half a share is all a window needs. The body reads its five input blocks,
  stores one block that covers the output buffer, and touches nothing else; the region invariant is the core's
  scoped rest. From this the launch theorem for shared input arrays gives the run: every weakly fair execution
  terminates, each argument array ends as it began, and the result array holds, block by block, what the body
  stored at the point that covers the block.
-/
import proofs.«104789_g2000005905678617_pallasbulk_1091_27_alg».proof.Proof.Gen.KernelIdeal.Launch
import proofs.«104789_g2000005905678617_pallasbulk_1091_27_alg».proof.Proof.Gen.KernelIdeal.Skeleton
import proofs.«104789_g2000005905678617_pallasbulk_1091_27_alg».proof.Proof.Gen.KernelIdeal.Points
import proofs.«104789_g2000005905678617_pallasbulk_1091_27_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program is its one region -/

/-- The buffers as the region finds them: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rX : Rect S2048x384 := Rect.unit (s := S2048x384) ![0, 0] S2048x384.size inb_S2048x384_S2048x384_0_0
abbrev rW : Rect S384x128 := Rect.unit (s := S384x128) ![0, 0] S384x128.size inb_S384x128_S384x128_0_0
abbrev rB : Rect S1x128 := Rect.unit (s := S1x128) ![0, 0] S1x128.size inb_S1x128_S1x128_0_0
abbrev rO : Rect S2048x20 := Rect.unit (s := S2048x20) ![0, 0] S2048x20.size inb_S2048x20_S2048x20_0_0

/-- The output buffer after the body, from the five input blocks: its one store, which covers the buffer. -/
def out5 (xl xr : Vec F S2048x384 .f32) (wu wd : Vec F S384x128 .f32) (b : Vec F S1x128 .f32) : Vec F S2048x20 .f32 :=
  View.canon [⟨rO, k0_pay1 (View.ld xl rX) (View.ld wu rW) (View.ld xr rX) (View.ld wd rW) (View.ld b rB)⟩]

theorem cover5 (p0 : Vec F S2048x20 .f32) (y : S2048x20.Idx) :
    ∃ pc ∈ ([⟨rO, p0⟩] : List (View.Piece (Elt F) S2048x20 .f32)), y ∈ pc.1.set :=
  View.cover_of_tiled [⟨rO, p0⟩] S2048x20.size (by rfl) y

/-! ## The body's triple -/

set_option maxHeartbeats 1000000 in
/-- On whole staging buffers, the five inputs' at read contents and the output's at anything, the body runs to a
    state holding the inputs' as they were and the output's at `out5` of them. -/
theorem sound_kernel (c : Dev nD) (E : Set ℕ) (i : grid0.Coords)
    (arg1 : Memref sig .tc .vmem S2048x384 .f32) (harg1 : arg1.IsWhole) (arg2 : Memref sig .tc .vmem S2048x384 .f32) (harg2 : arg2.IsWhole)
    (arg3 : Memref sig .tc .vmem S384x128 .f32) (harg3 : arg3.IsWhole) (arg4 : Memref sig .tc .vmem S384x128 .f32) (harg4 : arg4.IsWhole)
    (arg5 : Memref sig .tc .vmem S1x128 .f32) (harg5 : arg5.IsWhole) (arg6 : Memref sig .tc .vmem S2048x20 .f32) (harg6 : arg6.IsWhole)
    (xl xr : Vec F S2048x384 .f32) (wu wd : Vec F S384x128 .f32) (b : Vec F S1x128 .f32) (K : PUnit → sProp 𝕄) :
    iprop(owns (c : Thread nD τ) arg1 fullShare xl ∗ owns (c : Thread nD τ) arg2 fullShare xr ∗ owns (c : Thread nD τ) arg3 fullShare wu
        ∗ owns (c : Thread nD τ) arg4 fullShare wd ∗ owns (c : Thread nD τ) arg5 fullShare b ∗ (∃ d, owns (c : Thread nD τ) arg6 fullShare d)
        ∗ (iprop(owns (c : Thread nD τ) arg1 fullShare xl ∗ owns (c : Thread nD τ) arg2 fullShare xr ∗ owns (c : Thread nD τ) arg3 fullShare wu
            ∗ owns (c : Thread nD τ) arg4 fullShare wd ∗ owns (c : Thread nD τ) arg5 fullShare b
            ∗ owns (c : Thread nD τ) arg6 fullShare (out5 xl xr wu wd b)) -∗ K ⟨⟩))
      ⊢ wp frame (wpE (defs₀ (F := F)) Variants.none c none) E (cc0__head_body i arg1 harg1 arg2 harg2 arg3 harg3 arg4 harg4 arg5 harg5 arg6 harg6) K := by
  simp only [cc0__head_body_eq_skeleton]; unfold cc0__head_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The proof data -/

/-- The arrays as launched; after the body at point `t` each input's buffer at its block and the output's at
    `out5` of the input blocks; the invariant the core's scoped rest; the two windows on one buffer hold it at the
    two halves of the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

end Cert.KernelIdeal.Shared

end
-- ==== Proof.KernelIdealRun.lean ====
/-
  The run of the block-by-block linear head, from the body's triple.

  Six windows stand on four buffers: the activation array behind the two column-half windows, the weight array behind
  the two row-half windows, the bias row and the result array. At the region's entry each of the four buffers is whole at
  the full share; the activation buffer and the weight buffer are each split into the two halves of the full share, one
  half per window, which is how the windows' arrays are held through the region. The launch theorem for input windows
  sharing an array then gives the run, and the three argument arrays, being input windows' arrays, end as launched.
-/
import proofs.«104789_g2000005905678617_pallasbulk_1091_27_alg».proof.Proof.KernelIdealFrame

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the arrays, dealt among the windows -/

/-- The distinct buffers behind the six windows' arrays are the three argument arrays and the result array. -/
theorem arrBufs_eq (c : Dev nD) :
    (Pipeline.arrBufs spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_arg2) ↦{fullShare} V m c main_arg2) ∗ (((c.tc : Thread nD τ).loc main_v0) ↦{fullShare} V m c main_v0)) :=
  Pipeline.arrBufs_eq_of_list (Ix := Unit) (Name := ℕ) (U := UR sig nD τ) (Lvl := ℕ) spec0 c (V m c) [main_arg0, main_arg1, main_arg2, main_v0] (by decide) (by decide)

/-- The share each window holds its array at: the left and right halves for the two windows on one buffer, the
    full share for the bias row and for the result. -/
theorem share_0 (c : Dev nD) : (dats m 0 c).share 0 = fullShare.left := by unfold Dat.share; rfl
theorem share_1 (c : Dev nD) : (dats m 0 c).share 1 = fullShare.right := by unfold Dat.share; rfl
theorem share_2 (c : Dev nD) : (dats m 0 c).share 2 = fullShare.left := by unfold Dat.share; rfl
theorem share_3 (c : Dev nD) : (dats m 0 c).share 3 = fullShare.right := by unfold Dat.share; rfl
theorem share_4 (c : Dev nD) : (dats m 0 c).share 4 = fullShare := by unfold Dat.share; rfl
theorem share_5 (c : Dev nD) : (dats m 0 c).share 5 = fullShare := by unfold Dat.share; rfl

/-- Before any write-back a window's array holds what the region found in its buffer. -/
theorem arrAt_zero (c : Dev nD) (w : Fin cfg0.W) : (dats m 0 c).arrAt w 0 = V m c (Pipeline.arrRef spec0 w) := by
  show (dats m 0 c).A w = _
  exact A_eq m c w

/-- The four distinct buffers behind the six windows' arrays, each whole at the full share, make the windows' arrays
    at entry: the activation buffer and the weight buffer each split into the two halves of the full share. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  simp only [View.set_whole, share_0, share_1, share_2, share_3, share_4, share_5, arrAt_zero]
  iintro ⟨Hx, Hw, Hb, Ho⟩
  ihave Hx' := (pointsTo_share (PosShare.mem_left_op_right fullShare)).1 $$ Hx
  ihave Hw' := (pointsTo_share (PosShare.mem_left_op_right fullShare)).1 $$ Hw
  icases Hx' with ⟨Hxl, Hxr⟩
  icases Hw' with ⟨Hwl, Hwr⟩
  isplitl [Hxl]; · iexact Hxl
  isplitl [Hxr]; · iexact Hxr
  isplitl [Hwl]; · iexact Hwl
  isplitl [Hwr]; · iexact Hwr
  isplitl [Hb]; · iexact Hb
  iexact Ho

/-! ## The run and the frame -/

set_option backward.isDefEq.respectTransparency.types false in
/-- Every weakly fair execution of the program terminates, and in every final state each window's array holds what
    the proof data compute and every other unscoped buffer what it held at launch. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := fun _ => .rfl) (hout := fun _ => .rfl)

/-- The three argument arrays end as launched: each is an input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans (A_eq m c 0)),
      ((h c).1 2).trans (((dats m 0 c).arrAt_in 2 rfl _).trans (A_eq m c 2)),
      ((h c).1 4).trans (((dats m 0 c).arrAt_in 4 rfl _).trans (A_eq m c 4))⟩) (run_main m ρ)

end Cert.KernelIdeal.Shared

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Spec.lean ====
/-
  The linear head `max(x·W + b, 0)` over the extended reals, as one function of the three argument arrays, index by index.

  The activation array is 16384×768, the weight array 768×128 (the 20 real classes padded to 128 columns), the bias a 1×128
  row. `dense x w b r q` is entry (r, q) of the head at all 128 padded columns; `head` keeps the first 20 columns, which is
  the result both programs return. The zero of the clamp is kept as the f32 zero word: both programs use the same word.

  A sum over 768 positions is the sum over the first 384 plus the sum over the last 384 (`sum_halves`): addition on the
  extended reals is commutative and associative, so this needs no finiteness.
-/
import Idealize.ShloMosaic.PureOps.Ideal
import Idealize.ShloMosaic.Lib.ValueIdx

noncomputable section

namespace Cert.Head

open Idealize.ShloMosaic Idealize.ShloMosaic.ValueIdx

abbrev SX : Shape := ⟨2, ![16384, 768]⟩
abbrev SW : Shape := ⟨2, ![768, 128]⟩
abbrev SB : Shape := ⟨2, ![1, 128]⟩
abbrev SO : Shape := ⟨2, ![16384, 20]⟩
abbrev SP : Shape := ⟨2, ![16384, 128]⟩

/-- The f32 zero word, read as an extended real. -/
abbrev zero : EReal := Ideal.ofBits .f32 0x00000000#32

/-- Entry (r, q) of `max(x·W + b, 0)` at all 128 padded columns. -/
def dense (x : SX.Idx → EReal) (w : SW.Idx → EReal) (b : SB.Idx → EReal) (r : Fin 16384) (q : Fin 128) : EReal :=
  max ((∑ k : Fin 768, x (ix2 r k) * w (ix2 k q)) + b (ix2 (0 : Fin 1) q)) zero

/-- A class index below 20 as a padded column index below 128. -/
abbrev col (q : Fin 20) : Fin 128 := ⟨q.val, lt_of_lt_of_le q.isLt (by decide)⟩

/-- The head at all padded columns, as an array. -/
def padded (x : SX.Idx → EReal) (w : SW.Idx → EReal) (b : SB.Idx → EReal) : SP.Idx → EReal :=
  fun i => dense x w b (i 0) (i 1)

/-- The result: the first 20 columns. -/
def head (x : SX.Idx → EReal) (w : SW.Idx → EReal) (b : SB.Idx → EReal) : SO.Idx → EReal :=
  fun i => dense x w b (i 0) (col (i 1))

theorem head_apply (x : SX.Idx → EReal) (w : SW.Idx → EReal) (b : SB.Idx → EReal) (r : Fin 16384) (q : Fin 20) :
    head x w b (ix2 r q) = dense x w b r (col q) := rfl

theorem padded_apply (x : SX.Idx → EReal) (w : SW.Idx → EReal) (b : SB.Idx → EReal) (r : Fin 16384) (q : Fin 128) :
    padded x w b (ix2 r q) = dense x w b r q := rfl

/-- Position k of the first half, and of the second half, among the 768. -/
abbrev lo (k : Fin 384) : Fin 768 := ⟨k.val, lt_of_lt_of_le k.isLt (by decide)⟩
abbrev hi (k : Fin 384) : Fin 768 := ⟨384 + k.val, by have := k.isLt; omega⟩

/-- A sum over 768 positions split into its two halves. -/
theorem sum_halves {M : Type*} [AddCommMonoid M] (f : Fin 768 → M) :
    (∑ k : Fin 384, f (lo k)) + (∑ k : Fin 384, f (hi k)) = ∑ k : Fin 768, f k := by
  have h := Fin.sum_univ_add (M := M) (a := 384) (b := 384) (fun k : Fin (384 + 384) => f k)
  exact h.symm

end Cert.Head

end
-- ==== Proof.KernelPayload.lean ====
/-
  The kernel body's stored value at an entry.

  The body multiplies the left 384 columns of its 2048 activation rows by the upper 384 rows of the weights, the right
  384 columns by the lower 384 rows, adds the two products, adds the bias row spread over the rows, clamps at zero and
  keeps the first 20 of the 128 columns. Over the extended reals, at row p and class q:

      max((Σ_{k<384} xl[p,k]·wu[k,q] + Σ_{k<384} xr[p,k]·wd[k,q]) + b[0,q], 0).
-/
import proofs.«104789_g2000005905678617_pallasbulk_1091_27_alg».proof.Proof.Gen.KernelIdeal.Skeleton
import proofs.«104789_g2000005905678617_pallasbulk_1091_27_alg».proof.Proof.LibMatmulNN
import proofs.«104789_g2000005905678617_pallasbulk_1091_27_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx Idealize.ShloMosaic.Pipeline
open Cert.Head (col zero)

/-- The printed dimension record of the two products is the plain 2048×384 by 384×128 one. -/
theorem dims_plain : dot_S2048x384_S384x128_S2048x128_1_0_0_1_n_n = DotDims.plain 2048 384 128 := rfl

/-- The stored block at row p and class q. -/
theorem pay_apply (xl : FVec Ideal S2048x384 .f32) (wu : FVec Ideal S384x128 .f32) (xr : FVec Ideal S2048x384 .f32)
    (wd : FVec Ideal S384x128 .f32) (b : FVec Ideal S1x128 .f32) (p : Fin 2048) (q : Fin 20) :
    k0_pay1 (F := Ideal) xl wu xr wd b (ix2 p q)
      = max (((∑ k : Fin 384, xl (ix2 p k) * wu (ix2 k (col q))) + (∑ k : Fin 384, xr (ix2 p k) * wd (ix2 k (col q))))
              + b (ix2 (0 : Fin 1) (col q))) zero := by
  unfold k0_pay1
  refine (extractStridedSlice_apply (![0, 0] : Fin 2 → Nat) _ slices_S2048x128_o0_0_S2048x20 (ix2 p q) (ix2 p (col q)) ?_).trans ?_
  · intro a
    match a with
    | ⟨0, _⟩ => exact (Nat.zero_add _).symm
    | ⟨1, _⟩ => exact (Nat.zero_add _).symm
  · exact congrArg₂ max
      (congrArg₂ HAdd.hAdd
        (congrArg₂ HAdd.hAdd
          (Cert.MatmulNN.matmul_zero_apply _ dims_plain none xl wu p (col q))
          (Cert.MatmulNN.matmul_zero_apply _ dims_plain none xr wd p (col q)))
        (broadcastTo_apply b broadcasts_S1x128_S2048x128 (ix2 p (col q)) (ix2 (0 : Fin 1) (col q)) (by
          intro a
          match a with
          | ⟨0, _⟩ => rfl
          | ⟨1, _⟩ => rfl)))
      rfl

end Cert.KernelIdeal.Payload

end
-- ==== Proof.KernelValue.lean ====
/-
  The kernel's result array after the run is the head of the argument arrays.

  Point t of the 8 takes rows 2048·t … 2048·t + 2047. Its left window is those rows at columns 0…383 of the activation
  array, its right window the same rows at columns 384…767; the two weight windows are rows 0…383 and 384…767 of the
  weight array; the bias window is the whole row. So at row p of the block and class q the body's stored value is

      max((Σ_{k<384} x[r,k]·w[k,q] + Σ_{k<384} x[r,384+k]·w[384+k,q]) + b[0,q], 0),   r = 2048·t + p,

  and the two half sums make the whole sum over the 768 positions: entry (r, q) of the head. The 8 blocks tile the
  16384×20 result (row r lies in the block of point r / 2048), so the array ends holding the head everywhere.
-/
import proofs.«104789_g2000005905678617_pallasbulk_1091_27_alg».proof.Proof.KernelIdealRun
import proofs.«104789_g2000005905678617_pallasbulk_1091_27_alg».proof.Proof.KernelPayload
import proofs.«104789_g2000005905678617_pallasbulk_1091_27_alg».proof.Proof.Spec
import Idealize.ShloMosaic.Lib.Pipeline.Value

set_option maxRecDepth 16384

noncomputable section

namespace Cert.KernelIdeal.HeadValue

open Cert.KernelIdeal Cert.KernelIdeal.Gen Cert.KernelIdeal.Shared
open Idealize.ShloMosaic Idealize.ShloMosaic.TcCoe Idealize.ShloMosaic.ValueIdx
open Idealize.SL Idealize.SL.Sem
open Idealize.ShloMosaic.Pipeline (Dat Cfg Window)
open Cert.Head (col zero lo hi head dense)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row windows move with the point, the others are pinned. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 1
    ∧ win0_2.index t (0 : Fin 2) = 0 ∧ win0_2.index t (1 : Fin 2) = 0
    ∧ win0_3.index t (0 : Fin 2) = 1 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks, read where they lie in their arrays -/

theorem xl_apply (c : Dev nD) (t : Fin cfg0.N) (p : Fin 2048) (k : Fin 384) (r : Fin 16384) (hr : r.val = t.val * 2048 + p.val) :
    iblk m c 0 t (ix2 p k) = V m c main_arg0 (ix2 r (lo k)) := by
  obtain ⟨e00, e01, -⟩ := idx_facts t
  show V m c main_arg0 (((cfg0.win 0).blk t).view.emb (ix2 p k)) = V m c main_arg0 (ix2 r (lo k))
  refine congrArg (V m c main_arg0) (funext fun a => Fin.ext ?_)
  match a with
  | ⟨0, _⟩ => show win0_0.index t (0 : Fin 2) * 2048 + 1 * p.val = r.val; omega
  | ⟨1, _⟩ => show win0_0.index t (1 : Fin 2) * 384 + 1 * k.val = k.val; omega

theorem xr_apply (c : Dev nD) (t : Fin cfg0.N) (p : Fin 2048) (k : Fin 384) (r : Fin 16384) (hr : r.val = t.val * 2048 + p.val) :
    iblk m c 1 t (ix2 p k) = V m c main_arg0 (ix2 r (hi k)) := by
  obtain ⟨-, -, e10, e11, -⟩ := idx_facts t
  show V m c main_arg0 (((cfg0.win 1).blk t).view.emb (ix2 p k)) = V m c main_arg0 (ix2 r (hi k))
  refine congrArg (V m c main_arg0) (funext fun a => Fin.ext ?_)
  match a with
  | ⟨0, _⟩ => show win0_1.index t (0 : Fin 2) * 2048 + 1 * p.val = r.val; omega
  | ⟨1, _⟩ => show win0_1.index t (1 : Fin 2) * 384 + 1 * k.val = 384 + k.val; omega

theorem wu_apply (c : Dev nD) (t : Fin cfg0.N) (k : Fin 384) (q : Fin 128) :
    iblk m c 2 t (ix2 k q) = V m c main_arg1 (ix2 (lo k) q) := by
  obtain ⟨-, -, -, -, e20, e21, -⟩ := idx_facts t
  show V m c main_arg1 (((cfg0.win 2).blk t).view.emb (ix2 k q)) = V m c main_arg1 (ix2 (lo k) q)
  refine congrArg (V m c main_arg1) (funext fun a => Fin.ext ?_)
  match a with
  | ⟨0, _⟩ => show win0_2.index t (0 : Fin 2) * 384 + 1 * k.val = k.val; omega
  | ⟨1, _⟩ => show win0_2.index t (1 : Fin 2) * 128 + 1 * q.val = q.val; omega

theorem wd_apply (c : Dev nD) (t : Fin cfg0.N) (k : Fin 384) (q : Fin 128) :
    iblk m c 3 t (ix2 k q) = V m c main_arg1 (ix2 (hi k) q) := by
  obtain ⟨-, -, -, -, -, -, e30, e31, -⟩ := idx_facts t
  show V m c main_arg1 (((cfg0.win 3).blk t).view.emb (ix2 k q)) = V m c main_arg1 (ix2 (hi k) q)
  refine congrArg (V m c main_arg1) (funext fun a => Fin.ext ?_)
  match a with
  | ⟨0, _⟩ => show win0_3.index t (0 : Fin 2) * 384 + 1 * k.val = 384 + k.val; omega
  | ⟨1, _⟩ => show win0_3.index t (1 : Fin 2) * 128 + 1 * q.val = q.val; omega

theorem b_apply (c : Dev nD) (t : Fin cfg0.N) (q : Fin 128) :
    iblk m c 4 t (ix2 (0 : Fin 1) q) = V m c main_arg2 (ix2 (0 : Fin 1) q) := by
  obtain ⟨-, -, -, -, -, -, -, -, e40, e41, -⟩ := idx_facts t
  show V m c main_arg2 (((cfg0.win 4).blk t).view.emb (ix2 (0 : Fin 1) q)) = V m c main_arg2 (ix2 (0 : Fin 1) q)
  refine congrArg (V m c main_arg2) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-! ## The two half sums make the whole -/

/-- Entry (r, q) of the padded head from the two halves of its inner product: positions 0…383 and 384…767. -/
theorem dense_halves (x : Cert.Head.SX.Idx → EReal) (w : Cert.Head.SW.Idx → EReal) (b : Cert.Head.SB.Idx → EReal)
    (r : Fin 16384) (q : Fin 128) :
    max (((∑ k : Fin 384, x (ix2 r (lo k)) * w (ix2 (lo k) q)) + (∑ k : Fin 384, x (ix2 r (hi k)) * w (ix2 (hi k) q)))
          + b (ix2 (0 : Fin 1) q)) zero
      = dense x w b r q := by
  unfold Cert.Head.dense
  rw [← Cert.Head.sum_halves (fun k : Fin 768 => x (ix2 r k) * w (ix2 k q))]

/-! ## What a point writes back -/

/-- The block point `t` writes back is block `t` of the head of the argument arrays. -/
theorem flushed_eq (c : Dev nD) (t : Fin cfg0.N) :
    (dats m 0 c).flushed 5 t
      = ((cfg0.win 5).blk t).view.read (Elt Ideal) (head (V m c main_arg0) (V m c main_arg1) (V m c main_arg2)) := by
  show (cfg0.win 5).cut (grid0.coords t) ((dats m 0 c).after 5 t) = _
  rw [after5]
  unfold out5
  rw [View.canon_unit_zero hz]
  simp only [View.ld_unit_zero (S := S2048x384) hz, View.ld_unit_zero (S := S384x128) hz, View.ld_unit_zero (S := S1x128) hz]
  funext j
  obtain ⟨p, q, rfl⟩ : ∃ (p : Fin 2048) (q : Fin 20), j = ix2 p q := ⟨j 0, j 1, eq_ix2 j⟩
  have hN : grid0.N = 8 := N_0
  have ht : t.val < 8 := hN ▸ t.isLt
  have hp : p.val < 2048 := p.isLt
  let r : Fin 16384 := ⟨t.val * 2048 + p.val, by omega⟩
  obtain ⟨-, -, -, -, -, -, -, -, -, -, e50, e51⟩ := idx_facts t
  refine (Payload.pay_apply (iblk m c 0 t) (iblk m c 2 t) (iblk m c 1 t) (iblk m c 3 t) (iblk m c 4 t) p q).trans ?_
  have hemb : ((cfg0.win 5).blk t).view.emb (ix2 p q) = ix2 r q := by
    funext a; apply Fin.ext
    match a with
    | ⟨0, _⟩ => show win0_5.index t (0 : Fin 2) * 2048 + 1 * p.val = t.val * 2048 + p.val; omega
    | ⟨1, _⟩ => show win0_5.index t (1 : Fin 2) * 20 + 1 * q.val = q.val; omega
  show _ = head (V m c main_arg0) (V m c main_arg1) (V m c main_arg2) (((cfg0.win 5).blk t).view.emb (ix2 p q))
  rw [hemb, Cert.Head.head_apply]
  rw [← dense_halves]
  have e0 : ∀ k : Fin 384, iblk m c 0 t (ix2 p k) = V m c main_arg0 (ix2 r (lo k)) := fun k => xl_apply m c t p k r rfl
  have e1 : ∀ k : Fin 384, iblk m c 1 t (ix2 p k) = V m c main_arg0 (ix2 r (hi k)) := fun k => xr_apply m c t p k r rfl
  have e2 : ∀ k : Fin 384, iblk m c 2 t (ix2 k (col q)) = V m c main_arg1 (ix2 (lo k) (col q)) := fun k => wu_apply m c t k (col q)
  have e3 : ∀ k : Fin 384, iblk m c 3 t (ix2 k (col q)) = V m c main_arg1 (ix2 (hi k) (col q)) := fun k => wd_apply m c t k (col q)
  have e4 : iblk m c 4 t (ix2 (0 : Fin 1) (col q)) = V m c main_arg2 (ix2 (0 : Fin 1) (col q)) := b_apply m c t (col q)
  simp only [e0, e1, e2, e3, e4]

/-! ## The blocks tile the result -/

theorem mem_blk (t : Fin cfg0.N) (i : S16384x20.Idx) :
    i ∈ ((cfg0.win 5).blk t).view.set ↔ ∀ a : Fin 2, win0_5.index t a * S2048x20.size a ≤ (i a).val ∧ (i a).val < win0_5.index t a * S2048x20.size a + S2048x20.size a := by
  show i ∈ ((View.whole main_v0).slice (win0_5.rect t)).set ↔ _
  rw [View.set_slice_whole, Rect.mem_set_unit]
  exact Iff.rfl

/-- Row r lies in the block of point r / 2048. -/
theorem covered (i : S16384x20.Idx) : ∃ t : Fin cfg0.N, (cfg0.win 5).flush t = true ∧ i ∈ ((cfg0.win 5).blk t).view.set := by
  have hi0 : (i 0).val < 16384 := (i 0).isLt
  have hi1 : (i 1).val < 20 := (i 1).isLt
  have hN : grid0.N = 8 := N_0
  have hlt : (i 0).val / 2048 < grid0.N := by omega
  obtain ⟨-, -, -, -, -, -, -, -, -, -, e50, e51⟩ := idx_facts ⟨(i 0).val / 2048, hlt⟩
  refine ⟨⟨(i 0).val / 2048, hlt⟩, flush0_5 _, ?_⟩
  rw [mem_blk]
  intro a
  match a with
  | ⟨0, _⟩ =>
    show win0_5.index ⟨(i 0).val / 2048, hlt⟩ (0 : Fin 2) * 2048 ≤ (i 0).val ∧ (i 0).val < win0_5.index ⟨(i 0).val / 2048, hlt⟩ (0 : Fin 2) * 2048 + 2048
    have e : win0_5.index ⟨(i 0).val / 2048, hlt⟩ (0 : Fin 2) = (i 0).val / 2048 := e50
    omega
  | ⟨1, _⟩ =>
    show win0_5.index ⟨(i 0).val / 2048, hlt⟩ (1 : Fin 2) * 20 ≤ (i 1).val ∧ (i 1).val < win0_5.index ⟨(i 0).val / 2048, hlt⟩ (1 : Fin 2) * 20 + 20
    omega

/-- The result array after the run. -/
theorem final (c : Dev nD) :
    (dats m 0 c).arrAt 5 cfg0.N = head (V m c main_arg0) (V m c main_arg1) (V m c main_arg2) :=
  (dats m 0 c).arrAt_eq_of_cover 5 _ (fun t _ => flushed_eq m c t) covered

/-- The run, read: the result array at the head of the argument arrays, the arguments unchanged. -/
theorem run : θ_run defs (onTc (τ := τ) (main (F := Ideal))) ⟨m, fun _ => 0, ρ⟩ fun r => ∀ c : Dev nD,
      r.2.mem ((c.tc : Thread nD τ).loc main_v0)
        = head (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 5).trans (final m c),
      ((h c).1 0).trans (((dats m 0 c).arrAt_in 0 rfl _).trans (A_eq m c 0)),
      ((h c).1 2).trans (((dats m 0 c).arrAt_in 2 rfl _).trans (A_eq m c 2)),
      ((h c).1 4).trans (((dats m 0 c).arrAt_in 4 rfl _).trans (A_eq m c 4))⟩) (run_main m ρ)

end Cert.KernelIdeal.HeadValue

end
-- ==== Proof.ReferencePayload.lean ====
/-
  The reference body's stored value at an entry.

  One grid point of the reference takes 1024 whole rows of the activation array, the whole weight array and the bias
  row, and stores the 1024×128 block of `max(x·W + b, 0)` at all 128 padded columns. The body makes one store that
  covers the output buffer, so what the buffer holds afterwards is that store's value, and over the extended reals, at
  row p and padded column q, it is

      max(Σ_{k<768} x[p,k]·w[k,q] + b[0,q], 0).
-/
import proofs.«104789_g2000005905678617_pallasbulk_1091_27_alg».proof.Proof.ReferenceIdealFrameP
import proofs.«104789_g2000005905678617_pallasbulk_1091_27_alg».proof.Proof.LibMatmulNN
import proofs.«104789_g2000005905678617_pallasbulk_1091_27_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.HeadPayload

open Cert.ReferenceIdeal Cert.ReferenceIdeal.Gen
open Idealize.ShloMosaic Idealize.ShloMosaic.TcCoe Idealize.ShloMosaic.ValueIdx Idealize.ShloMosaic.Pipeline
open Cert.Head (zero)

theorem hz : (![0, 0] : Fin 2 → Nat) = fun _ => 0 := funext fun a => by fin_cases a <;> rfl

section Piece

variable {F : FTy → Type} [FloatOps F]

/-- What the body leaves in the output's staging buffer is its one store's value, computed from the three input
    buffers read whole. -/
theorem out_eq (c : Dev nD) (i : grid0.Coords) (a2 : Memref sig .tc .vmem S1024x768 .f32) (h2 : a2.IsWhole)
    (a3 : Memref sig .tc .vmem S768x128 .f32) (h3 : a3.IsWhole) (a4 : Memref sig .tc .vmem S1x128 .f32) (h4 : a4.IsWhole)
    (a5 : Memref sig .tc .vmem S1024x128 .f32) (h5 : a5.IsWhole)
    (x0 : Vec F S1024x768 .f32) (x1 : Vec F S768x128 .f32) (x2 : Vec F S1x128 .f32) (xt0 : TbBuf0 (F := F) c tbM0_0) :
    GenP.out0_A_3 c i a2 h2 a3 h3 a4 h4 a5 h5 x0 x1 x2 xt0 = k0_pay1 x0 x1 x2 := by
  unfold GenP.out0_A_3
  rw [View.read_writes_eq_canon _ _ _ (GenP.cover0_A_3 c i a2 h2 a3 h3 a4 h4 a5 h5 x0 x1 x2 xt0)]
  unfold kernelRun0_A
  dsimp only
  rw [View.canon_unit_zero hz]
  simp only [View.readAt_eq_ld, h2.read_unread, h3.read_unread, h4.read_unread, View.ld_unit_zero (S := S1024x768) hz,
    View.ld_unit_zero (S := S768x128) hz, View.ld_unit_zero (S := S1x128) hz]

end Piece

/-- The printed dimension record of the product is the plain 1024×768 by 768×128 one. -/
theorem dims_plain : dot_S1024x768_S768x128_S1024x128_1_0_0_1_n_n = DotDims.plain 1024 768 128 := rfl

/-- The stored block at row p and padded column q. -/
theorem pay_apply (x : FVec Ideal S1024x768 .f32) (w : FVec Ideal S768x128 .f32) (b : FVec Ideal S1x128 .f32)
    (p : Fin 1024) (q : Fin 128) :
    k0_pay1 (F := Ideal) x w b (ix2 p q)
      = max ((∑ k : Fin 768, x (ix2 p k) * w (ix2 k q)) + b (ix2 (0 : Fin 1) q)) zero := by
  unfold k0_pay1
  exact congrArg₂ max
    (congrArg₂ HAdd.hAdd
      (Cert.MatmulNN.matmul_zero_apply _ dims_plain none x w p q)
      (broadcastTo_apply b broadcasts_S1x128_S1024x128 (ix2 p q) (ix2 (0 : Fin 1) q) (by
        intro a
        match a with
        | ⟨0, _⟩ => rfl
        | ⟨1, _⟩ => rfl)))
    rfl

end Cert.ReferenceIdeal.HeadPayload

end
-- ==== Proof.ReferenceValue.lean ====
/-
  The reference's padded result array after its region is the head of the argument arrays at all 128 padded columns.

  Point t of the 16 takes rows 1024·t … 1024·t + 1023 of the activation array at all 768 columns, the whole weight array
  and the bias row. So at row p of the block and padded column q the body's stored value is

      max(Σ_{k<768} x[r,k]·w[k,q] + b[0,q], 0),   r = 1024·t + p,

  entry (r, q) of the padded head. The 16 blocks tile the 16384×128 array (row r lies in the block of point r / 1024), so
  the array ends holding the padded head everywhere. The prefetched seed word is read by no index map, so the side
  condition on it is empty.
-/
import proofs.«104789_g2000005905678617_pallasbulk_1091_27_alg».proof.Proof.ReferenceIdealFrameP
import proofs.«104789_g2000005905678617_pallasbulk_1091_27_alg».proof.Proof.ReferencePayload
import proofs.«104789_g2000005905678617_pallasbulk_1091_27_alg».proof.Proof.Spec
import Idealize.ShloMosaic.Lib.Pipeline.Value

set_option maxRecDepth 16384

noncomputable section

namespace Cert.ReferenceIdeal.HeadValue

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat Cfg Window)
open Cert.Head (zero padded dense)

variable (m : (ℓ : Loc nD τ sig) → Buf (Elt Ideal) ℓ) (ρ : Dev nD → PrngReg)

/-- No index map reads the prefetched word, so nothing is asked of it. -/
theorem ok : Ok m := trivial

/-- The printed index maps over the grid: the activation and result windows move with the point, the others are pinned. -/
theorem idx_facts : ∀ t : Fin grid0.N,
    cc0_transform_0 (grid0.coords t) (0 : Fin 2) = t.val ∧ cc0_transform_0 (grid0.coords t) (1 : Fin 2) = 0
    ∧ cc0_transform_1 (grid0.coords t) (0 : Fin 2) = 0 ∧ cc0_transform_1 (grid0.coords t) (1 : Fin 2) = 0
    ∧ cc0_transform_2 (grid0.coords t) (0 : Fin 2) = 0 ∧ cc0_transform_2 (grid0.coords t) (1 : Fin 2) = 0
    ∧ cc0_transform_3 (grid0.coords t) (0 : Fin 2) = t.val ∧ cc0_transform_3 (grid0.coords t) (1 : Fin 2) = 0 :=
  (by decide +kernel : ∀ t : Fin grid0.N, _)

/-! ## The input blocks, read where they lie in their arrays -/

/-- Row p, position k of point t's activation block is row 1024·t + p, position k of the array. -/
theorem blk0_read (c : Dev nD) (t : Fin (cfgM m (ok m)).N) (A : Buf (Elt Ideal) ((c.tc : Thread nD τ).loc main_arg0))
    (p : Fin 1024) (k : Fin 768) (r : Fin 16384) (hr : r.val = t.val * 1024 + p.val) :
    (((cfgM m (ok m)).win 0).blk t).view.read (Elt Ideal) A (ix2 p k) = A (ix2 r k) := by
  obtain ⟨e00, e01, -⟩ := idx_facts t
  show A ((((cfgM m (ok m)).win 0).blk t).view.emb (ix2 p k)) = A (ix2 r k)
  refine congrArg A (funext fun a => Fin.ext ?_)
  match a with
  | ⟨0, _⟩ => show cc0_transform_0 (grid0.coords t) (0 : Fin 2) * 1024 + 1 * p.val = r.val; omega
  | ⟨1, _⟩ => show cc0_transform_0 (grid0.coords t) (1 : Fin 2) * 768 + 1 * k.val = k.val; omega

/-- The weight block is the whole weight array at every point. -/
theorem blk1_read (c : Dev nD) (t : Fin (cfgM m (ok m)).N) (A : Buf (Elt Ideal) ((c.tc : Thread nD τ).loc main_arg1))
    (k : Fin 768) (q : Fin 128) :
    (((cfgM m (ok m)).win 1).blk t).view.read (Elt Ideal) A (ix2 k q) = A (ix2 k q) := by
  obtain ⟨-, -, e10, e11, -⟩ := idx_facts t
  show A ((((cfgM m (ok m)).win 1).blk t).view.emb (ix2 k q)) = A (ix2 k q)
  refine congrArg A (funext fun a => Fin.ext ?_)
  match a with
  | ⟨0, _⟩ => show cc0_transform_1 (grid0.coords t) (0 : Fin 2) * 768 + 1 * k.val = k.val; omega
  | ⟨1, _⟩ => show cc0_transform_1 (grid0.coords t) (1 : Fin 2) * 128 + 1 * q.val = q.val; omega

/-- The bias block is the whole bias row at every point. -/
theorem blk2_read (c : Dev nD) (t : Fin (cfgM m (ok m)).N) (A : Buf (Elt Ideal) ((c.tc : Thread nD τ).loc main_arg2))
    (q : Fin 128) :
    (((cfgM m (ok m)).win 2).blk t).view.read (Elt Ideal) A (ix2 (0 : Fin 1) q) = A (ix2 (0 : Fin 1) q) := by
  obtain ⟨-, -, -, -, e20, e21, -⟩ := idx_facts t
  show A ((((cfgM m (ok m)).win 2).blk t).view.emb (ix2 (0 : Fin 1) q)) = A (ix2 (0 : Fin 1) q)
  refine congrArg A (funext fun a => Fin.ext ?_)
  match a with
  | ⟨0, _⟩ => show cc0_transform_2 (grid0.coords t) (0 : Fin 2) * 1 + 1 * 0 = 0; omega
  | ⟨1, _⟩ => show cc0_transform_2 (grid0.coords t) (1 : Fin 2) * 128 + 1 * q.val = q.val; omega

theorem x_apply (c : Dev nD) (t : Fin (cfgM m (ok m)).N) (p : Fin 1024) (k : Fin 768) (r : Fin 16384) (hr : r.val = t.val * 1024 + p.val) :
    iblk m (ok m) c 0 t (ix2 p k) = V m c main_arg0 (ix2 r k) := by
  unfold iblk
  exact blk0_read m c t (V m c main_arg0) p k r hr

theorem w_apply (c : Dev nD) (t : Fin (cfgM m (ok m)).N) (k : Fin 768) (q : Fin 128) :
    iblk m (ok m) c 1 t (ix2 k q) = V m c main_arg1 (ix2 k q) := by
  unfold iblk
  exact blk1_read m c t (V m c main_arg1) k q

theorem b_apply (c : Dev nD) (t : Fin (cfgM m (ok m)).N) (q : Fin 128) :
    iblk m (ok m) c 2 t (ix2 (0 : Fin 1) q) = V m c main_arg2 (ix2 (0 : Fin 1) q) := by
  unfold iblk
  exact blk2_read m c t (V m c main_arg2) q

/-! ## What a point writes back -/

/-- The block point `t` writes back is block `t` of the padded head of the argument arrays. -/
theorem flushed_eq (c : Dev nD) (t : Fin (cfgM m (ok m)).N) :
    (GenP.dats m (ok m) 0 c).flushed 3 t
      = (((cfgM m (ok m)).win 3).blk t).view.read (Elt Ideal) (padded (V m c main_arg0) (V m c main_arg1) (V m c main_arg2)) := by
  show ((cfgM m (ok m)).win 3).cut (grid0.coords t) ((GenP.dats m (ok m) 0 c).after 3 t) = _
  rw [GenP.after0_3]
  unfold GenP.outsAt0
  refine (congrArg (((cfgM m (ok m)).win 3).cut (grid0.coords t))
    (HeadPayload.out_eq (F := Ideal) c (grid0.coords t) (ms0_0 m (ok m) t) (hs0_0 m (ok m) t) (ms0_1 m (ok m) t) (hs0_1 m (ok m) t)
      (ms0_2 m (ok m) t) (hs0_2 m (ok m) t) (ms0_3 m (ok m) t) (hs0_3 m (ok m) t)
      (iblk m (ok m) c 0 t) (iblk m (ok m) c 1 t) (iblk m (ok m) c 2 t) (tbl m 0))).trans ?_
  refine funext fun (j : S1024x128.Idx) => ?_
  obtain ⟨p, q, rfl⟩ : ∃ (p : Fin 1024) (q : Fin 128), j = ix2 p q := ⟨j 0, j 1, eq_ix2 j⟩
  have hN : grid0.N = 16 := N_0
  have ht : t.val < 16 := hN ▸ t.isLt
  have hp : p.val < 1024 := p.isLt
  let r : Fin 16384 := ⟨t.val * 1024 + p.val, by omega⟩
  obtain ⟨-, -, -, -, -, -, e30, e31⟩ := idx_facts t
  refine (HeadPayload.pay_apply (iblk m (ok m) c 0 t) (iblk m (ok m) c 1 t) (iblk m (ok m) c 2 t) p q).trans ?_
  have hemb : (((cfgM m (ok m)).win 3).blk t).view.emb (ix2 p q) = ix2 r q := by
    funext a; apply Fin.ext
    match a with
    | ⟨0, _⟩ => show cc0_transform_3 (grid0.coords t) (0 : Fin 2) * 1024 + 1 * p.val = t.val * 1024 + p.val; omega
    | ⟨1, _⟩ => show cc0_transform_3 (grid0.coords t) (1 : Fin 2) * 128 + 1 * q.val = q.val; omega
  show _ = padded (V m c main_arg0) (V m c main_arg1) (V m c main_arg2) ((((cfgM m (ok m)).win 3).blk t).view.emb (ix2 p q))
  rw [hemb, Cert.Head.padded_apply]
  unfold Cert.Head.dense
  have e0 : ∀ k : Fin 768, iblk m (ok m) c 0 t (ix2 p k) = V m c main_arg0 (ix2 r k) := fun k => x_apply m c t p k r rfl
  have e1 : ∀ k : Fin 768, iblk m (ok m) c 1 t (ix2 k q) = V m c main_arg1 (ix2 k q) := fun k => w_apply m c t k q
  have e2 : iblk m (ok m) c 2 t (ix2 (0 : Fin 1) q) = V m c main_arg2 (ix2 (0 : Fin 1) q) := b_apply m c t q
  simp only [e0, e1, e2]

/-! ## The blocks tile the padded result -/

theorem mem_blk (t : Fin (cfgM m (ok m)).N) (i : S16384x128.Idx) :
    i ∈ (((cfgM m (ok m)).win 3).blk t).view.set ↔ ∀ a : Fin 2, cc0_transform_3 (grid0.coords t) a * S1024x128.size a ≤ (i a).val ∧ (i a).val < cc0_transform_3 (grid0.coords t) a * S1024x128.size a + S1024x128.size a := by
  have h1 : (((cfgM m (ok m)).win 3).blk t).view.set = (((cfgM m (ok m)).win 3).rect t).set :=
    View.set_slice_whole main_v16 (((cfgM m (ok m)).win 3).rect t)
  rw [h1]
  exact Rect.mem_set_unit

/-- Row r lies in the block of point r / 1024. -/
theorem covered (i : S16384x128.Idx) : ∃ t : Fin (cfgM m (ok m)).N, ((cfgM m (ok m)).win 3).flush t = true ∧ i ∈ (((cfgM m (ok m)).win 3).blk t).view.set := by
  have hi0 : (i 0).val < 16384 := (i 0).isLt
  have hi1 : (i 1).val < 128 := (i 1).isLt
  have hN : grid0.N = 16 := N_0
  have hlt : (i 0).val / 1024 < grid0.N := by omega
  obtain ⟨-, -, -, -, -, -, e30, e31⟩ := idx_facts ⟨(i 0).val / 1024, hlt⟩
  refine ⟨⟨(i 0).val / 1024, hlt⟩, flush0_3 _ _, ?_⟩
  rw [mem_blk]
  intro a
  match a with
  | ⟨0, _⟩ =>
    show cc0_transform_3 (grid0.coords ⟨(i 0).val / 1024, hlt⟩) (0 : Fin 2) * 1024 ≤ (i 0).val ∧ (i 0).val < cc0_transform_3 (grid0.coords ⟨(i 0).val / 1024, hlt⟩) (0 : Fin 2) * 1024 + 1024
    have e : cc0_transform_3 (grid0.coords ⟨(i 0).val / 1024, hlt⟩) (0 : Fin 2) = (i 0).val / 1024 := e30
    omega
  | ⟨1, _⟩ =>
    show cc0_transform_3 (grid0.coords ⟨(i 0).val / 1024, hlt⟩) (1 : Fin 2) * 128 ≤ (i 1).val ∧ (i 1).val < cc0_transform_3 (grid0.coords ⟨(i 0).val / 1024, hlt⟩) (1 : Fin 2) * 128 + 128
    omega

/-- The padded result array after the region. -/
theorem final (c : Dev nD) :
    (GenP.dats m (ok m) 0 c).arrAt 3 (cfgM m (ok m)).N = padded (V m c main_arg0) (V m c main_arg1) (V m c main_arg2) :=
  (GenP.dats m (ok m) 0 c).arrAt_eq_of_cover 3 _ (fun t _ => flushed_eq m c t) (covered m)

end Cert.ReferenceIdeal.HeadValue

end
-- ==== Proof.ReferenceTail.lean ====
/-
  The reference's result is the head of the argument arrays.

  After its region the reference keeps rows 0…16383 and columns 0…19 of the 16384×128 padded result: entry (r, q) of
  what it returns is entry (r, q) of the padded head, q < 20, which is entry (r, q) of the head. The region leaves
  the padded result array holding the padded head and every argument array as launched, and nothing before the region
  writes an argument array, so the run ends with the head of the launched arguments in the result.
-/
import proofs.«104789_g2000005905678617_pallasbulk_1091_27_alg».proof.Proof.ReferenceValue
import Idealize.ShloMosaic.Lib.StableHlo.Run
import Idealize.ShloMosaic.Lib.Pipeline.FrameSuffix
import Idealize.ShloMosaic.Lib.Pipeline.Value

set_option maxRecDepth 16384

noncomputable section

namespace Cert.ReferenceIdeal.HeadValue

open Cert.ReferenceIdeal Cert.ReferenceIdeal.Gen
open Idealize.ShloMosaic Idealize.ShloMosaic.TcCoe Idealize.ShloMosaic.ValueIdx Idealize.ShloMosaic.Pipeline
open Idealize.SL Idealize.SL.Sem
open Cert.Head (zero padded dense head col)

variable (m : (ℓ : Loc nD τ sig) → Buf (Elt Ideal) ℓ) (ρ : Dev nD → PrngReg)

/-- The first 20 columns of the padded head are the head. -/
theorem slice_padded (x : Cert.Head.SX.Idx → EReal) (w : Cert.Head.SW.Idx → EReal) (b : Cert.Head.SB.Idx → EReal) :
    extractStridedSlice S16384x20 ![0, 0] (padded x w b) slices_S16384x128_S16384x20_0_0 = head x w b := by
  funext j
  obtain ⟨r, q, rfl⟩ : ∃ (r : Fin 16384) (q : Fin 20), j = ix2 r q := ⟨j 0, j 1, eq_ix2 j⟩
  refine (extractStridedSlice_apply (![0, 0] : Fin 2 → Nat) _ slices_S16384x128_S16384x20_0_0 (ix2 r q) (ix2 r (col q)) ?_).trans rfl
  intro a
  match a with
  | ⟨0, _⟩ => exact (Nat.zero_add _).symm
  | ⟨1, _⟩ => exact (Nat.zero_add _).symm

/-- What the result buffer holds after the slice that follows the region. -/
theorem tail_eq (c : Dev nD) :
    Pipeline.afterTail pcfgs (fun _ => adm m (ok m)) (GenP.dats m (ok m)) 0 (V0 m) [hostOps1] c main_v17
      = head (V m c main_arg0) (V m c main_arg1) (V m c main_arg2) := by
  unfold Pipeline.afterTail
  show StableHlo.after hostOps1 _ (Proc.devRef .tc main_v17) = _
  after_results
  rw [show Pipeline.withArrays (Pipeline.pin pcfgs (fun _ => adm m (ok m)) 0).spec c (V0 m c) (fun w => (GenP.dats m (ok m) 0 c).arrAt w (Pipeline.pin pcfgs (fun _ => adm m (ok m)) 0).N) (Proc.devRef .tc main_v16)
      = padded (V m c main_arg0) (V m c main_arg1) (V m c main_arg2) from
    (Pipeline.withArrays_arr spec0 winFacts0.arr_inj c _ _ 3).trans (final m c)]
  exact slice_padded _ _ _

/-- The result buffer is no window's array: it bypasses the region and is written by the slice after it. -/
theorem result_no_array : ∀ w : Fin 4, (spec0 w).arr.view.ref ≠ main_v17 := by decide

/-- The run, read: the result at the head of the launched argument arrays, the arguments unchanged. -/
theorem run : θ_run defs (onTc (τ := τ) (main (F := Ideal))) ⟨m, fun _ => 0, ρ⟩ fun r => ∀ c : Dev nD,
      r.2.mem ((c.tc : Thread nD τ).loc main_v17)
        = head (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(((h c).2 main_v17 (Pipeline.mem_restRefs_of main_v17 rfl result_no_array)).trans (tail_eq m c)).trans
        (by rw [V_main_arg0, V_main_arg1, V_main_arg2]),
      ((h c).1 0).trans (((GenP.dats m (ok m) 0 c).arrAt_in 0 rfl _).trans ((GenP.A_eq m (ok m) c 0).trans (V_main_arg0 m c))),
      ((h c).1 1).trans (((GenP.dats m (ok m) 0 c).arrAt_in 1 rfl _).trans ((GenP.A_eq m (ok m) c 1).trans (V_main_arg1 m c))),
      ((h c).1 2).trans (((GenP.dats m (ok m) 0 c).arrAt_in 2 rfl _).trans ((GenP.A_eq m (ok m) c 2).trans (V_main_arg2 m c)))⟩)
    (GenP.run_main m ρ (ok m))

end Cert.ReferenceIdeal.HeadValue

end
-- ==== Proof.lean ====
/-
  The linear head `max(x·W + b, 0)` at its first 20 classes: the block-by-block kernel against the reference.

  The kernel splits each inner product over the 768 hidden positions into the first 384 and the last 384 positions (two
  windows on the activation array, two on the weight array), adds the two partial products, the bias and clamps at zero,
  and stores the first 20 columns; the reference forms the whole inner product at 128 padded columns, adds the bias,
  clamps, and keeps the first 20 columns afterwards. Over the extended reals the two half sums add up to the whole sum
  (addition is commutative and associative there, so no finiteness of the inputs is used), hence both programs end
  with the same array, the head of the argument arrays. Each program terminates without a fault and leaves its
  argument arrays as launched; the idealized kernel is the kernel's own text read over the extended reals.
-/
import proofs.«104789_g2000005905678617_pallasbulk_1091_27_alg».proof.Defs
import proofs.«104789_g2000005905678617_pallasbulk_1091_27_alg».proof.Proof.Gen.Kernel
import proofs.«104789_g2000005905678617_pallasbulk_1091_27_alg».proof.Proof.Gen.KernelIdeal
import proofs.«104789_g2000005905678617_pallasbulk_1091_27_alg».proof.Proof.Gen.ReferenceIdeal
import proofs.«104789_g2000005905678617_pallasbulk_1091_27_alg».proof.Proof.Gen.Pre_finite_inputs
import proofs.«104789_g2000005905678617_pallasbulk_1091_27_alg».proof.Proof.KernelRun
import proofs.«104789_g2000005905678617_pallasbulk_1091_27_alg».proof.Proof.KernelValue
import proofs.«104789_g2000005905678617_pallasbulk_1091_27_alg».proof.Proof.ReferenceTail
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Shared.frame m ρ

theorem frame_kernel_ideal : Cert.frame_KernelIdeal := fun m ρ _ => Cert.KernelIdeal.Shared.frame m ρ

theorem frame_reference_ideal : Cert.frame_ReferenceIdeal := fun m ρ _ => Cert.ReferenceIdeal.GenP.frame m ρ trivial

/-- Both runs end with the head of their argument arrays, and the argument arrays agree. -/
theorem algebraic : Cert.algebraic_KernelIdeal_ReferenceIdeal := by
  intro m ρ m' ρ' _ hagree
  refine ⟨_, Cert.KernelIdeal.HeadValue.run m ρ, ?_⟩
  refine (θ_run Cert.ReferenceIdeal.defs _ _).mono (fun _ h c => ⟨(h c).1.trans ?_, (h c).2⟩)
    (Cert.ReferenceIdeal.HeadValue.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
